-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S3072 : Shape := ⟨1, ![3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S3072, .f32⟩
  | .hbm, ⟨19, _⟩ => ⟨S8192x1024, .f32⟩
  | .hbm, ⟨20, _⟩ => ⟨S8192x3072, .bf16⟩
  | .hbm, ⟨21, _⟩ => ⟨S4x2048x3072, .bf16⟩
  | .hbm, ⟨22, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .f32⟩
  | .local _ .vmem, ⟨13, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  bcast_S_S1024 : S_.BroadcastsInDim S1024 (![] : Fin 0 → Fin S1024.rank)
  concatenates_S1024_S1024_S1024_S3072_d0 : Shape.Concatenates [S1024, S1024, S1024] S3072 0
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KB.Region0.lean ====
/-
  The first kernel region (the fused projection): at each of its 16 grid points the body reads a block of 512 rows of
  the flattened activations, the whole concatenated weight matrix and the whole concatenated bias, and stores the
  block's 512 x 3072 products-plus-bias into the output window's buffer.  Stated at a parameter V, the contents of the
  core's buffers when the region is entered: each window's block at a point, what the body leaves in the output
  buffer (one store covering it), the body's triple, the proof data of the pipeline and its body obligation at
  every point.
-/
import proofs.«129911_j76287209112195_2_alg».proof.Proof.Gen.Kernel.Launch
import proofs.«129911_j76287209112195_2_alg».proof.Proof.Gen.Kernel.Skeleton
import proofs.«129911_j76287209112195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or the
    block index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each buffer the body touches. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output window's buffer after the body, from the three input blocks: its one store. -/
def out0_3 (x0 : Vec F S512x1024 .f32) (x1 : Vec F S1024x3072 .bf16) (x2 : Vec F S3072 .f32) : Vec F S512x3072 .bf16 :=
  View.canon [⟨r0_3, k0_pay1 (View.ld x0 r0_0) (View.ld x1 r0_1) (View.ld x2 r0_2)⟩]

/-- The store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole buffers, the inputs' at given contents and the output's at anything, runs to the continuation
    with the inputs' unchanged and the output's at out0_3 of the inputs. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body at point t each
    input's buffer at its block and the output's at out0_3 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The second kernel region (attention): at each of its 4 x 4 grid points the body reads a block of 512 query rows and
  the batch's whole key and value blocks (2048 rows each) — three windows onto ONE array, the projected activations,
  at column blocks 0, 1 and 2 — and stores the block's 512 x 1024 results.  Stated at a parameter V, the contents of the
  core's buffers when the region is entered.  The three input windows hold three disjoint shares of their common
  array (the left half, and the two halves of the right half), the output window its array whole.
-/
import proofs.«129911_j76287209112195_2_alg».proof.Proof.Gen.Kernel.Launch
import proofs.«129911_j76287209112195_2_alg».proof.Proof.Gen.Kernel.Skeleton
import proofs.«129911_j76287209112195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched it there or the
    block index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches. -/
abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-- The output window's buffer after the body, from the three input blocks: its one store. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_kv) (View.ld x2 r1_kv)⟩]

/-- The store covers the buffer. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole buffers, the inputs' at given contents and the output's at anything, runs to the continuation
    with the inputs' unchanged and the output's at out1_3 of the inputs. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the pipeline on core c: the arrays as the region finds them; after the body at point t each
    input's buffer at its block and the output's at out1_3 of the input blocks; the scoped rest and the generator
    register untouched; nothing owed; the three input windows' shares of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Shared1.lean ====
/-
  The second region's three input windows stand on one array.  At the region's entry the array's full share is split
  into the left half and the two halves of the right half, one per window; at its exit the three shares, still at the
  entry contents (an input window writes nothing back), are joined into the full share again, beside the output's
  array at what the write-backs leave.
-/
import proofs.«129911_j76287209112195_2_alg».proof.Proof.Gen.Kernel.Launch
import proofs.«129911_j76287209112195_2_alg».proof.Proof.Gen.Kernel.Skeleton
import proofs.«129911_j76287209112195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.KB.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second region's four windows stand on two arrays. -/
theorem img1 : Finset.univ.image (Pipeline.arrRef (cfgs (1 : Fin 2)).spec) = {main_v12, main_v13} := by decide

/-- The two buffers behind the second region's windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) (cfgs (1 : Fin 2)).spec c V' : sProp 𝕄)
      = iprop((((c : Thread nD τ).loc main_v12) ↦{fullShare} V' main_v12) ∗ (((c : Thread nD τ).loc main_v13) ↦{fullShare} V' main_v13)) := by
  unfold Pipeline.arrBufs
  rw [img1, bigSep_insert (by decide), bigSep_singleton]
  rfl

/-- The second region's windowed arrays at contents G w, window by window: the common array of the three input
    windows at their three shares, the output's array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v12) ↦{fullShare.left} G 0) ∗ (((c : Thread nD τ).loc main_v12) ↦{fullShare.right.left} G 1)
          ∗ (((c : Thread nD τ).loc main_v12) ↦{fullShare.right.right} G 2) ∗ (((c : Thread nD τ).loc main_v13) ↦{fullShare} G 3)) := by
  unfold Dat.arrays
  rw [bigSep_W1, (arr_whole1 0).set_eq_univ, (arr_whole1 3).set_eq_univ]
  rfl

/-- Entry: the unscoped buffers at contents V are the region's arrays at their entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) (by decide) c (V c), arrays1_eq, arrBufs1_eq]
  refine sep_mono ?_ .rfl
  iintro ⟨H12, H13⟩
  ihave H := (pointsTo_share (PosShare.mem_left_op_right fullShare)).1 $$ H12
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H13

/-- Exit: the region's arrays at their final contents and the rest are the unscoped buffers at any contents V' that
    has the result at what the write-backs leave and agrees with V elsewhere. -/
theorem exit1 (c : Dev nD) (V' : (b : Ref sig .tc) → Buf (Elt F) ((c : Thread nD τ).loc b))
    (h13 : V' main_v13 = (dat1 V c).arrAt 3 cfg1.N) (hrest : ∀ b, b ≠ main_v13 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs (1 : Fin 2) (by decide) c V', arrays1_eq, arrBufs1_eq]
  refine sep_mono ?_ (Entails.of_eq ?_)
  · rw [h13, hrest main_v12 (by decide),
      (dat1 V c).arrAt_in 0 rfl cfg1.N, (dat1 V c).arrAt_in 1 rfl cfg1.N, (dat1 V c).arrAt_in 2 rfl cfg1.N]
    rw [A_eq1 V c 0, A_eq1 V c 1, A_eq1 V c 2]
    iintro ⟨Hl, Hrl, Hrr, H13⟩
    isplitr [H13]
    · iapply (pointsTo_share (PosShare.mem_left_op_right fullShare)).2
      isplitl [Hl]; · iexact Hl
      iapply (pointsTo_share (PosShare.mem_left_op_right fullShare.right)).2
      isplitl [Hrl] <;> iassumption
    · iexact H13
  · unfold Pipeline.unscopedRest
    exact bigSep_congr fun b hb => by
      rw [hrest b (fun e => (Finset.mem_sdiff.mp hb).2 (by rw [e]; decide))]

end Cert.Kernel.Hand

end
-- ==== Proof.KB.Run.lean ====
/-
  The run of the whole program: host operations, the projection region, a reshape, the attention region.  The buffer
  contents at each boundary are a fold from the launch memory: after the first host stretch, after the first region (the
  projected activations at what its write-backs leave), after the reshape, after the second region (the result at what
  its write-backs leave).  Each pipeline's proof data is taken at its region's entry contents; each region is entered
  from "every unscoped buffer at the boundary's contents" and left at the next boundary's.  The second region's three
  input windows share one array: at entry its full share is split into three, at exit the three are joined again.  The
  run's post reads every unscoped buffer of the final state against the last boundary's contents, so the argument
  arrays end as launched and the result holds the second region's output array.
-/
import proofs.«129911_j76287209112195_2_alg».proof.Proof.Gen.Kernel.Launch
import proofs.«129911_j76287209112195_2_alg».proof.Proof.Gen.Kernel.Skeleton
import proofs.«129911_j76287209112195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.Gen.Kernel.Regions
import proofs.«129911_j76287209112195_2_alg».proof.Proof.KB.Region0
import proofs.«129911_j76287209112195_2_alg».proof.Proof.KB.Region1
import proofs.«129911_j76287209112195_2_alg».proof.Proof.KB.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the first host stretch, read at the core's own references. -/
abbrev VV1 : (c : Dev nD) → (b : Ref sig .tc) → Buf (Elt F) ((c : Thread nD τ).loc b) := fun c b => Gen.V1 m c b
/-- What the first region leaves in the projected activations. -/
def o2 (c : Dev nD) : Buf (Elt F) ((c : Thread nD τ).loc main_v11) := (dat0 (VV1 m) c).arrAt 3 cfg0.N
/-- The buffers after the first region: the projected activations at o2, every other as before. -/
def outs2 : (r : Ref sig .tc) → (c : Dev nD) → Buf (Elt F) ((c : Thread nD τ).loc r) :=
  Function.update (fun r c => VV1 m c r) main_v11 (fun c => o2 m c)
abbrev outsH : Outs (F := F) := fun _ => outs2 m
abbrev VV2 : (c : Dev nD) → (b : Ref sig .tc) → Buf (Elt F) ((c : Thread nD τ).loc b) := fun c b => Gen.V2 m (outsH m) c b
abbrev VV3 : (c : Dev nD) → (b : Ref sig .tc) → Buf (Elt F) ((c : Thread nD τ).loc b) := fun c b => Gen.V3 m (outsH m) c b
/-- What the second region leaves in the result. -/
def o4 (c : Dev nD) : Buf (Elt F) ((c : Thread nD τ).loc main_v13) := (dat1 (VV3 m) c).arrAt 3 cfg1.N
/-- The buffers after the second region. -/
def W4 (c : Dev nD) : Valuation τ sig (Elt F) := Function.update (Gen.V3 m (outsH m) c) (Proc.devRef .tc main_v13) (o4 m c)
abbrev VV4 : (c : Dev nD) → (b : Ref sig .tc) → Buf (Elt F) ((c : Thread nD τ).loc b) := fun c b => W4 m c b

theorem outs2_v11 (c : Dev nD) : outs2 m main_v11 c = o2 m c := by
  unfold outs2; rw [Function.update_self]

theorem VV2_v11 (c : Dev nD) : VV2 m c main_v11 = o2 m c := by
  show Function.update (Gen.V1 m c) (Proc.devRef .tc main_v11) (outs2 m main_v11 c) (Proc.devRef .tc main_v11) = _
  rw [Function.update_self, outs2_v11]

theorem hF0 (c : Dev nD) (w : Fin cfg0.W) : (dat0 (VV1 m) c).arrAt w cfg0.N = VV2 m c (Pipeline.arrRef spec0 w) :=
  match w with
  | ⟨0, _⟩ => ((dat0 (VV1 m) c).arrAt_in 0 rfl _).trans ((A_eq0 (VV1 m) c 0).trans (Gen.V2_of m (outsH m) c main_v10 (by decide)).symm)
  | ⟨1, _⟩ => ((dat0 (VV1 m) c).arrAt_in 1 rfl _).trans ((A_eq0 (VV1 m) c 1).trans (Gen.V2_of m (outsH m) c main_v6 (by decide)).symm)
  | ⟨2, _⟩ => ((dat0 (VV1 m) c).arrAt_in 2 rfl _).trans ((A_eq0 (VV1 m) c 2).trans (Gen.V2_of m (outsH m) c main_v9 (by decide)).symm)
  | ⟨3, _⟩ => (VV2_v11 m c).symm

theorem hrest0 (c : Dev nD) : ∀ b, b ∉ Finset.univ.image (Pipeline.arrRef spec0) → VV2 m c b = VV1 m c b :=
  fun b hb => Gen.V2_of m (outsH m) c b fun h => hb (by
    rw [List.mem_singleton.mp h]; exact Finset.mem_image.mpr ⟨3, Finset.mem_univ _, rfl⟩)

theorem VV4_v13 (c : Dev nD) : VV4 m c main_v13 = o4 m c := by
  show Function.update (Gen.V3 m (outsH m) c) (Proc.devRef .tc main_v13) (o4 m c) (Proc.devRef .tc main_v13) = _
  rw [Function.update_self]

theorem VV4_of_ne (c : Dev nD) (b : Ref sig .tc) (h : b ≠ main_v13) : VV4 m c b = VV3 m c b := by
  show Function.update (Gen.V3 m (outsH m) c) (Proc.devRef .tc main_v13) (o4 m c) (Proc.devRef .tc b) = _
  rw [Function.update_of_ne (StableHlo.devRef_ne_of_ne h)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the contents after the first host stretch, left with
    the projected activations at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents after the reshape, left with the result
    at what the write-backs leave; the common array of its three input windows split at entry, joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (Gen.V3 m (outsH m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := entry1 (VV3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (VV3 m c))
        ⊢ (unscopedBufs (Ix := Unit) (Name := ℕ) (U := UR sig nD τ) (Lvl := ℕ) c (VV4 m c) : sProp 𝕄) :=
      exit1 (VV3 m) c (VV4 m c) (VV4_v13 m c) (fun b hb => VV4_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .host (hseg hostOps1 hostOps1_sub Gen.hostOps1_fresh (Gen.V2 m (outsH m))),
    .region (reg1 m) ]
theorem main_run (c : Dev nD) : main (F := F) c = Pipeline.Seg.run (segs m) := (main_chain c).trans (by chain_rfl)

set_option backward.isDefEq.respectTransparency.types false in
/-- Every weakly fair execution from memory m with zero counters terminates, nothing faulting, and every unscoped
    buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KB.Frame.lean ====
/-
  The run's post read at the buffers the claims name: the result holds what the second region's write-backs leave, and
  each argument array — written by no host operation and by no region — holds its launch contents.
-/
import proofs.«129911_j76287209112195_2_alg».proof.Proof.Gen.Kernel.Launch
import proofs.«129911_j76287209112195_2_alg».proof.Proof.Gen.Kernel.Skeleton
import proofs.«129911_j76287209112195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.Gen.Kernel.Regions
import proofs.«129911_j76287209112195_2_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation and no region writes holds its launch contents at the end. -/
theorem VV4_unwritten (c : Dev nD) (b : Ref sig .tc) (h4 : b ≠ main_v13) (h3 : b ∉ Gen.hostOps1_W)
    (h2 : b ∉ ([main_v11] : List (Ref sig .tc))) (h1 : b ∉ Gen.hostOps0_W) : VV4 m c b = m ((c : Thread nD τ).loc b) :=
  (VV4_of_ne m c b h4).trans <| (Gen.V3_of m (outsH m) c b h3).trans <| (Gen.V2_of m (outsH m) c b h2).trans <| (Gen.V1_of m c b h1).trans rfl

/-- Every weakly fair execution terminates, the result at the second region's output array, the arguments as launched. -/
theorem run_value : θ_run defs (onTc (τ := τ) (main (F := F))) ⟨m, fun _ => 0, ρ⟩ (fun r => ∀ c : Dev nD,
      r.2.mem ((c.tc : Thread nD τ).loc main_v13) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (VV4_v13 m c),
      (h c _ (mem_uc main_arg0 (by decide))).trans (VV4_unwritten m c main_arg0 (by decide) (by decide) (by decide) (by decide)),
      (h c _ (mem_uc main_arg1 (by decide))).trans (VV4_unwritten m c main_arg1 (by decide) (by decide) (by decide) (by decide)),
      (h c _ (mem_uc main_arg2 (by decide))).trans (VV4_unwritten m c main_arg2 (by decide) (by decide) (by decide) (by decide)),
      (h c _ (mem_uc main_arg3 (by decide))).trans (VV4_unwritten m c main_arg3 (by decide) (by decide) (by decide) (by decide)),
      (h c _ (mem_uc main_arg4 (by decide))).trans (VV4_unwritten m c main_arg4 (by decide) (by decide) (by decide) (by decide)),
      (h c _ (mem_uc main_arg5 (by decide))).trans (VV4_unwritten m c main_arg5 (by decide) (by decide) (by decide) (by decide)),
      (h c _ (mem_uc main_arg6 (by decide))).trans (VV4_unwritten m c main_arg6 (by decide) (by decide) (by decide) (by decide))⟩)
    (run_all m ρ)

/-- The frame: every weakly fair execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.Kernel.Hand

end
-- ==== Proof.KI.Region0.lean ====
/-
  The first kernel region (the fused projection): at each of its 16 grid points the body reads a block of 512 rows of
  the flattened activations, the whole concatenated weight matrix and the whole concatenated bias, and stores the
  block's 512 x 3072 products-plus-bias into the output window's buffer.  Stated at a parameter V, the contents of the
  core's buffers when the region is entered: each window's block at a point, what the body leaves in the output
  buffer (one store covering it), the body's triple, the proof data of the pipeline and its body obligation at
  every point.
-/
import proofs.«129911_j76287209112195_2_alg».proof.Proof.Gen.KernelIdeal.Launch
import proofs.«129911_j76287209112195_2_alg».proof.Proof.Gen.KernelIdeal.Skeleton
import proofs.«129911_j76287209112195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or the
    block index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each buffer the body touches. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output window's buffer after the body, from the three input blocks: its one store. -/
def out0_3 (x0 : Vec F S512x1024 .f32) (x1 : Vec F S1024x3072 .bf16) (x2 : Vec F S3072 .f32) : Vec F S512x3072 .bf16 :=
  View.canon [⟨r0_3, k0_pay1 (View.ld x0 r0_0) (View.ld x1 r0_1) (View.ld x2 r0_2)⟩]

/-- The store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole buffers, the inputs' at given contents and the output's at anything, runs to the continuation
    with the inputs' unchanged and the output's at out0_3 of the inputs. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body at point t each
    input's buffer at its block and the output's at out0_3 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region (attention): at each of its 4 x 4 grid points the body reads a block of 512 query rows and
  the batch's whole key and value blocks (2048 rows each) — three windows onto ONE array, the projected activations,
  at column blocks 0, 1 and 2 — and stores the block's 512 x 1024 results.  Stated at a parameter V, the contents of the
  core's buffers when the region is entered.  The three input windows hold three disjoint shares of their common
  array (the left half, and the two halves of the right half), the output window its array whole.
-/
import proofs.«129911_j76287209112195_2_alg».proof.Proof.Gen.KernelIdeal.Launch
import proofs.«129911_j76287209112195_2_alg».proof.Proof.Gen.KernelIdeal.Skeleton
import proofs.«129911_j76287209112195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched it there or the
    block index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches. -/
abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-- The output window's buffer after the body, from the three input blocks: its one store. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_kv) (View.ld x2 r1_kv)⟩]

/-- The store covers the buffer. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole buffers, the inputs' at given contents and the output's at anything, runs to the continuation
    with the inputs' unchanged and the output's at out1_3 of the inputs. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the pipeline on core c: the arrays as the region finds them; after the body at point t each
    input's buffer at its block and the output's at out1_3 of the input blocks; the scoped rest and the generator
    register untouched; nothing owed; the three input windows' shares of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shared1.lean ====
/-
  The second region's three input windows stand on one array.  At the region's entry the array's full share is split
  into the left half and the two halves of the right half, one per window; at its exit the three shares, still at the
  entry contents (an input window writes nothing back), are joined into the full share again, beside the output's
  array at what the write-backs leave.
-/
import proofs.«129911_j76287209112195_2_alg».proof.Proof.Gen.KernelIdeal.Launch
import proofs.«129911_j76287209112195_2_alg».proof.Proof.Gen.KernelIdeal.Skeleton
import proofs.«129911_j76287209112195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second region's four windows stand on two arrays. -/
theorem img1 : Finset.univ.image (Pipeline.arrRef (cfgs (1 : Fin 2)).spec) = {main_v12, main_v13} := by decide

/-- The two buffers behind the second region's windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) (cfgs (1 : Fin 2)).spec c V' : sProp 𝕄)
      = iprop((((c : Thread nD τ).loc main_v12) ↦{fullShare} V' main_v12) ∗ (((c : Thread nD τ).loc main_v13) ↦{fullShare} V' main_v13)) := by
  unfold Pipeline.arrBufs
  rw [img1, bigSep_insert (by decide), bigSep_singleton]
  rfl

/-- The second region's windowed arrays at contents G w, window by window: the common array of the three input
    windows at their three shares, the output's array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v12) ↦{fullShare.left} G 0) ∗ (((c : Thread nD τ).loc main_v12) ↦{fullShare.right.left} G 1)
          ∗ (((c : Thread nD τ).loc main_v12) ↦{fullShare.right.right} G 2) ∗ (((c : Thread nD τ).loc main_v13) ↦{fullShare} G 3)) := by
  unfold Dat.arrays
  rw [bigSep_W1, (arr_whole1 0).set_eq_univ, (arr_whole1 3).set_eq_univ]
  rfl

/-- Entry: the unscoped buffers at contents V are the region's arrays at their entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) (by decide) c (V c), arrays1_eq, arrBufs1_eq]
  refine sep_mono ?_ .rfl
  iintro ⟨H12, H13⟩
  ihave H := (pointsTo_share (PosShare.mem_left_op_right fullShare)).1 $$ H12
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H13

/-- Exit: the region's arrays at their final contents and the rest are the unscoped buffers at any contents V' that
    has the result at what the write-backs leave and agrees with V elsewhere. -/
theorem exit1 (c : Dev nD) (V' : (b : Ref sig .tc) → Buf (Elt F) ((c : Thread nD τ).loc b))
    (h13 : V' main_v13 = (dat1 V c).arrAt 3 cfg1.N) (hrest : ∀ b, b ≠ main_v13 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs (1 : Fin 2) (by decide) c V', arrays1_eq, arrBufs1_eq]
  refine sep_mono ?_ (Entails.of_eq ?_)
  · rw [h13, hrest main_v12 (by decide),
      (dat1 V c).arrAt_in 0 rfl cfg1.N, (dat1 V c).arrAt_in 1 rfl cfg1.N, (dat1 V c).arrAt_in 2 rfl cfg1.N]
    rw [A_eq1 V c 0, A_eq1 V c 1, A_eq1 V c 2]
    iintro ⟨Hl, Hrl, Hrr, H13⟩
    isplitr [H13]
    · iapply (pointsTo_share (PosShare.mem_left_op_right fullShare)).2
      isplitl [Hl]; · iexact Hl
      iapply (pointsTo_share (PosShare.mem_left_op_right fullShare.right)).2
      isplitl [Hrl] <;> iassumption
    · iexact H13
  · unfold Pipeline.unscopedRest
    exact bigSep_congr fun b hb => by
      rw [hrest b (fun e => (Finset.mem_sdiff.mp hb).2 (by rw [e]; decide))]

end Cert.KernelIdeal.Hand

end
-- ==== Proof.KI.Run.lean ====
/-
  The run of the whole program: host operations, the projection region, a reshape, the attention region.  The buffer
  contents at each boundary are a fold from the launch memory: after the first host stretch, after the first region (the
  projected activations at what its write-backs leave), after the reshape, after the second region (the result at what
  its write-backs leave).  Each pipeline's proof data is taken at its region's entry contents; each region is entered
  from "every unscoped buffer at the boundary's contents" and left at the next boundary's.  The second region's three
  input windows share one array: at entry its full share is split into three, at exit the three are joined again.  The
  run's post reads every unscoped buffer of the final state against the last boundary's contents, so the argument
  arrays end as launched and the result holds the second region's output array.
-/
import proofs.«129911_j76287209112195_2_alg».proof.Proof.Gen.KernelIdeal.Launch
import proofs.«129911_j76287209112195_2_alg».proof.Proof.Gen.KernelIdeal.Skeleton
import proofs.«129911_j76287209112195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.Gen.KernelIdeal.Regions
import proofs.«129911_j76287209112195_2_alg».proof.Proof.KI.Region0
import proofs.«129911_j76287209112195_2_alg».proof.Proof.KI.Region1
import proofs.«129911_j76287209112195_2_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the first host stretch, read at the core's own references. -/
abbrev VV1 : (c : Dev nD) → (b : Ref sig .tc) → Buf (Elt F) ((c : Thread nD τ).loc b) := fun c b => Gen.V1 m c b
/-- What the first region leaves in the projected activations. -/
def o2 (c : Dev nD) : Buf (Elt F) ((c : Thread nD τ).loc main_v11) := (dat0 (VV1 m) c).arrAt 3 cfg0.N
/-- The buffers after the first region: the projected activations at o2, every other as before. -/
def outs2 : (r : Ref sig .tc) → (c : Dev nD) → Buf (Elt F) ((c : Thread nD τ).loc r) :=
  Function.update (fun r c => VV1 m c r) main_v11 (fun c => o2 m c)
abbrev outsH : Outs (F := F) := fun _ => outs2 m
abbrev VV2 : (c : Dev nD) → (b : Ref sig .tc) → Buf (Elt F) ((c : Thread nD τ).loc b) := fun c b => Gen.V2 m (outsH m) c b
abbrev VV3 : (c : Dev nD) → (b : Ref sig .tc) → Buf (Elt F) ((c : Thread nD τ).loc b) := fun c b => Gen.V3 m (outsH m) c b
/-- What the second region leaves in the result. -/
def o4 (c : Dev nD) : Buf (Elt F) ((c : Thread nD τ).loc main_v13) := (dat1 (VV3 m) c).arrAt 3 cfg1.N
/-- The buffers after the second region. -/
def W4 (c : Dev nD) : Valuation τ sig (Elt F) := Function.update (Gen.V3 m (outsH m) c) (Proc.devRef .tc main_v13) (o4 m c)
abbrev VV4 : (c : Dev nD) → (b : Ref sig .tc) → Buf (Elt F) ((c : Thread nD τ).loc b) := fun c b => W4 m c b

theorem outs2_v11 (c : Dev nD) : outs2 m main_v11 c = o2 m c := by
  unfold outs2; rw [Function.update_self]

theorem VV2_v11 (c : Dev nD) : VV2 m c main_v11 = o2 m c := by
  show Function.update (Gen.V1 m c) (Proc.devRef .tc main_v11) (outs2 m main_v11 c) (Proc.devRef .tc main_v11) = _
  rw [Function.update_self, outs2_v11]

theorem hF0 (c : Dev nD) (w : Fin cfg0.W) : (dat0 (VV1 m) c).arrAt w cfg0.N = VV2 m c (Pipeline.arrRef spec0 w) :=
  match w with
  | ⟨0, _⟩ => ((dat0 (VV1 m) c).arrAt_in 0 rfl _).trans ((A_eq0 (VV1 m) c 0).trans (Gen.V2_of m (outsH m) c main_v10 (by decide)).symm)
  | ⟨1, _⟩ => ((dat0 (VV1 m) c).arrAt_in 1 rfl _).trans ((A_eq0 (VV1 m) c 1).trans (Gen.V2_of m (outsH m) c main_v6 (by decide)).symm)
  | ⟨2, _⟩ => ((dat0 (VV1 m) c).arrAt_in 2 rfl _).trans ((A_eq0 (VV1 m) c 2).trans (Gen.V2_of m (outsH m) c main_v9 (by decide)).symm)
  | ⟨3, _⟩ => (VV2_v11 m c).symm

theorem hrest0 (c : Dev nD) : ∀ b, b ∉ Finset.univ.image (Pipeline.arrRef spec0) → VV2 m c b = VV1 m c b :=
  fun b hb => Gen.V2_of m (outsH m) c b fun h => hb (by
    rw [List.mem_singleton.mp h]; exact Finset.mem_image.mpr ⟨3, Finset.mem_univ _, rfl⟩)

theorem VV4_v13 (c : Dev nD) : VV4 m c main_v13 = o4 m c := by
  show Function.update (Gen.V3 m (outsH m) c) (Proc.devRef .tc main_v13) (o4 m c) (Proc.devRef .tc main_v13) = _
  rw [Function.update_self]

theorem VV4_of_ne (c : Dev nD) (b : Ref sig .tc) (h : b ≠ main_v13) : VV4 m c b = VV3 m c b := by
  show Function.update (Gen.V3 m (outsH m) c) (Proc.devRef .tc main_v13) (o4 m c) (Proc.devRef .tc b) = _
  rw [Function.update_of_ne (StableHlo.devRef_ne_of_ne h)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the contents after the first host stretch, left with
    the projected activations at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents after the reshape, left with the result
    at what the write-backs leave; the common array of its three input windows split at entry, joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (Gen.V3 m (outsH m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := entry1 (VV3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (VV3 m c))
        ⊢ (unscopedBufs (Ix := Unit) (Name := ℕ) (U := UR sig nD τ) (Lvl := ℕ) c (VV4 m c) : sProp 𝕄) :=
      exit1 (VV3 m) c (VV4 m c) (VV4_v13 m c) (fun b hb => VV4_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .host (hseg hostOps1 hostOps1_sub Gen.hostOps1_fresh (Gen.V2 m (outsH m))),
    .region (reg1 m) ]
theorem main_run (c : Dev nD) : main (F := F) c = Pipeline.Seg.run (segs m) := (main_chain c).trans (by chain_rfl)

set_option backward.isDefEq.respectTransparency.types false in
/-- Every weakly fair execution from memory m with zero counters terminates, nothing faulting, and every unscoped
    buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The run's post read at the buffers the claims name: the result holds what the second region's write-backs leave, and
  each argument array — written by no host operation and by no region — holds its launch contents.
-/
import proofs.«129911_j76287209112195_2_alg».proof.Proof.Gen.KernelIdeal.Launch
import proofs.«129911_j76287209112195_2_alg».proof.Proof.Gen.KernelIdeal.Skeleton
import proofs.«129911_j76287209112195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«129911_j76287209112195_2_alg».proof.Proof.Gen.KernelIdeal.Regions
import proofs.«129911_j76287209112195_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation and no region writes holds its launch contents at the end. -/
theorem VV4_unwritten (c : Dev nD) (b : Ref sig .tc) (h4 : b ≠ main_v13) (h3 : b ∉ Gen.hostOps1_W)
    (h2 : b ∉ ([main_v11] : List (Ref sig .tc))) (h1 : b ∉ Gen.hostOps0_W) : VV4 m c b = m ((c : Thread nD τ).loc b) :=
  (VV4_of_ne m c b h4).trans <| (Gen.V3_of m (outsH m) c b h3).trans <| (Gen.V2_of m (outsH m) c b h2).trans <| (Gen.V1_of m c b h1).trans rfl

/-- Every weakly fair execution terminates, the result at the second region's output array, the arguments as launched. -/
theorem run_value : θ_run defs (onTc (τ := τ) (main (F := F))) ⟨m, fun _ => 0, ρ⟩ (fun r => ∀ c : Dev nD,
      r.2.mem ((c.tc : Thread nD τ).loc main_v13) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (VV4_v13 m c),
      (h c _ (mem_uc main_arg0 (by decide))).trans (VV4_unwritten m c main_arg0 (by decide) (by decide) (by decide) (by decide)),
      (h c _ (mem_uc main_arg1 (by decide))).trans (VV4_unwritten m c main_arg1 (by decide) (by decide) (by decide) (by decide)),
      (h c _ (mem_uc main_arg2 (by decide))).trans (VV4_unwritten m c main_arg2 (by decide) (by decide) (by decide) (by decide)),
      (h c _ (mem_uc main_arg3 (by decide))).trans (VV4_unwritten m c main_arg3 (by decide) (by decide) (by decide) (by decide)),
      (h c _ (mem_uc main_arg4 (by decide))).trans (VV4_unwritten m c main_arg4 (by decide) (by decide) (by decide) (by decide)),
      (h c _ (mem_uc main_arg5 (by decide))).trans (VV4_unwritten m c main_arg5 (by decide) (by decide) (by decide) (by decide)),
      (h c _ (mem_uc main_arg6 (by decide))).trans (VV4_unwritten m c main_arg6 (by decide) (by decide) (by decide) (by decide))⟩)
    (run_all m ρ)

/-- The frame: every weakly fair execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.KernelIdeal.Hand

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibRowReduce.lean ====
/-
  A reduction along the rows of a matrix, read at a row: over axis 1 of an [a, b] array, the sum and the maximum at
  row r run over the b entries (r, k) of that row. General in the extents and the float format; these specialise the
  library's one-axis readings, which name the entries through the reduced index with the coordinate put back.
-/
import Idealize.ShloMosaic.PureOps.Ideal.Laws
import Idealize.ShloMosaic.PureOps.Reduce
import Idealize.ShloMosaic.Lib.ValueIdx

namespace Idealize.ShloMosaic.ValueIdx

/-- Row r with column k put back is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum over the columns, at row r, is the sum of that row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- A lane maximum over the columns, at row r, is the fold of max over that row's entries from the accumulator's value. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = Finset.fold max (Ideal.ofBits φ acc) (fun k : Fin b => src (ix2 r k)) Finset.univ := by
  refine (Ideal.multiReduction_maximumf_single src acc h hφ hacc (ix1 r)).trans ?_
  show Finset.fold max (Ideal.ofBits φ acc) (src ∘ h.lift (ix1 r)) (Finset.univ : Finset (Fin b)) = _
  exact congrArg (fun f => Finset.fold max (Ideal.ofBits φ acc) f (Finset.univ : Finset (Fin b)))
    (funext fun k => congrArg src (lift_row h r k))

end Idealize.ShloMosaic.ValueIdx
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelPayloads.lean ====
/-
  The two kernel bodies' stored values, read at an index, at the ideal values (every float an extended real, every
  operation exact, a change of float format the identity).

  The projection body stores, at (r, j), the row r of x against the column j of w plus the bias entry b(j):
  (∑ₖ x(r,k) · w(k,j)) + b(j).

  The attention body stores, at (0, r, d), with s(t) = ∑ₑ q(0,r,e) · k(0,t,e) the score of query row r against key row t
  and m = the maximum of s over the 2048 keys (the fold of max from −∞):
  (∑ₜ exp(s(t) − m) · v(0,t,d)) / (∑ₜ exp(s(t) − m)).

  Each step is one reading lemma: a matrix product into the zero accumulator is the sum over the contracted coordinate; a
  transpose swaps the two coordinates; a leading unit axis dropped or added keeps the entry; a reduction along the rows
  is the sum, resp. the fold of max, over the row; a column kept as [512, 1] and broadcast along its unit axis reads the
  row's entry; the pointwise operations act entry by entry.
-/
import proofs.«129911_j76287209112195_2_alg».proof.Proof.Gen.KernelIdeal.Skeleton
import proofs.«129911_j76287209112195_2_alg».proof.Proof.LibPlainDot
import proofs.«129911_j76287209112195_2_alg».proof.Proof.LibRowReduce
import proofs.«129911_j76287209112195_2_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Idealize.ShloMosaic Idealize.ShloMosaic.ValueIdx

/-- the score of row r of the query block against row t of the key block -/
def sc (q : Vec Ideal S1x512x1024 .bf16) (k : Vec Ideal S1x2048x1024 .bf16) (r : Fin 512) (t : Fin 2048) : EReal :=
  ∑ e : Fin 1024, q (ix3 (0 : Fin 1) r e) * k (ix3 (0 : Fin 1) t e)

/-- The projection block at entry (r, j): the row of x against the column of w, plus the bias entry. -/
theorem proj_apply (x0 : Vec Ideal S512x1024 .f32) (w : Vec Ideal S1024x3072 .bf16) (b : Vec Ideal S3072 .f32) (r : Fin 512) (j : Fin 3072) :
    Gen.k0_pay1 (F := Ideal) x0 w b (ix2 r j) = (∑ k : Fin 1024, x0 (ix2 r k) * w (ix2 k j)) + b (ix1 j) := by
  unfold Gen.k0_pay1
  simp only [shapeCast_self]
  show (matmul (F := Ideal) dot_S512x1024_S1024x3072_S512x3072_1_0_0_1_n_n none
        (truncf .bf16 (x0 : FVec Ideal S512x1024 .f32) Gen.bitsLt_bf16_f32) (w : FVec Ideal S1024x3072 .bf16)
        (constant S512x3072 .f32 0x00000000#32) (ix2 r j))
      + broadcastTo S512x3072 (shapeCast S1x3072 b Gen.shapeCasts_S3072_S1x3072) Gen.broadcasts_S1x3072_S512x3072 (ix2 r j) = _
  rw [broadcastTo_1b_ab_apply, shapeCast_a_1a_apply]
  refine congrArg (· + b (ix1 j)) ?_
  exact matmul_plain_zero_apply _ rfl none _ _ r j

/-- The scores block q · kᵀ at entry (r, t) is the score of row r against key row t. -/
theorem score_apply (q : FVec Ideal S1x512x1024 .bf16) (k : FVec Ideal S1x2048x1024 .bf16) (r : Fin 512) (t : Fin 2048) :
    matmul (F := Ideal) dot_S512x1024_S1024x2048_S512x2048_1_0_0_1_n_n none
      (shapeCast S512x1024 q Gen.shapeCasts_S1x512x1024_S512x1024)
      (transpose S1024x2048 [1, 0] (shapeCast S2048x1024 k Gen.shapeCasts_S1x2048x1024_S2048x1024) Gen.transposes_S2048x1024_p1_0_S1024x2048)
      (constant S512x2048 .f32 0x00000000#32) (ix2 r t) = sc q k r t := by
  refine (matmul_plain_zero_apply _ rfl none _ _ r t).trans ?_
  refine Finset.sum_congr rfl fun e _ => ?_
  rw [shapeCast_1ab_ab_apply, transpose_ix2_apply, shapeCast_1ab_ab_apply]

/-- The row maximum, kept as a column and broadcast back over the row, at entry (r, t). -/
theorem rowmax_apply (s : FVec Ideal S512x2048 .f32) (r : Fin 512) (t : Fin 2048) :
    broadcastTo S512x2048
      (shapeCast S512x1 (multiReduction .maximumf [1] S512 s 0xFF800000#32 Gen.reduces_S512x2048_S512 (.inl rfl) rfl) Gen.shapeCasts_S512_S512x1)
      Gen.broadcasts_S512x1_S512x2048 (ix2 r t)
      = (Finset.univ : Finset (Fin 2048)).fold max ⊥ (fun t' => s (ix2 r t')) := by
  refine (broadcastTo_a1_ab_apply _ _ r t).trans ?_
  refine (shapeCast_a_a1_apply _ _ r 0).trans ?_
  refine (multiReduction_maximumf_row s _ _ _ _ r).trans ?_
  have h : Ideal.ofBits .f32 0xFF800000#32 = (⊥ : EReal) := by simp [Ideal.ofBits, Ideal.ieee]
  rw [h]

/-- The row sum, kept as a column and broadcast over 1024 columns, at entry (r, d). -/
theorem rowsum_apply (p : FVec Ideal S512x2048 .f32) (r : Fin 512) (d : Fin 1024) :
    broadcastTo S512x1024
      (shapeCast S512x1 (multiReduction .add [1] S512 p 0x00000000#32 Gen.reduces_S512x2048_S512 (.inl rfl) rfl) Gen.shapeCasts_S512_S512x1)
      Gen.broadcasts_S512x1_S512x1024 (ix2 r d)
      = ∑ t : Fin 2048, p (ix2 r t) := by
  refine (broadcastTo_a1_ab_apply _ _ r d).trans ?_
  refine (shapeCast_a_a1_apply _ _ r 0).trans ?_
  exact multiReduction_add_row p _ _ _ _ r

/-- The weights block against the value block at entry (r, d). -/
theorem pv_apply (p : FVec Ideal S512x2048 .f32) (v : FVec Ideal S1x2048x1024 .bf16) (r : Fin 512) (d : Fin 1024) :
    matmul (F := Ideal) dot_S512x2048_S2048x1024_S512x1024_1_0_0_1_n_n none (truncf .bf16 p Gen.bitsLt_bf16_f32)
      (shapeCast S2048x1024 v Gen.shapeCasts_S1x2048x1024_S2048x1024) (constant S512x1024 .f32 0x00000000#32) (ix2 r d)
      = ∑ t : Fin 2048, p (ix2 r t) * v (ix3 (0 : Fin 1) t d) := by
  refine (matmul_plain_zero_apply _ rfl none _ _ r d).trans ?_
  refine Finset.sum_congr rfl fun t _ => ?_
  rw [shapeCast_1ab_ab_apply]
  rfl

/-- The softmax-weighted sum over a scores block s, divided once by the sum of the weights, at entry (r, d). -/
theorem softmax_apply (s : FVec Ideal S512x2048 .f32) (v : FVec Ideal S1x2048x1024 .bf16) (r : Fin 512) (d : Fin 1024) :
    divf
      (matmul (F := Ideal) dot_S512x2048_S2048x1024_S512x1024_1_0_0_1_n_n none
        (truncf .bf16
          (exp (subf s (broadcastTo S512x2048
            (shapeCast S512x1 (multiReduction .maximumf [1] S512 s 0xFF800000#32 Gen.reduces_S512x2048_S512 (.inl rfl) rfl) Gen.shapeCasts_S512_S512x1)
            Gen.broadcasts_S512x1_S512x2048)))
          Gen.bitsLt_bf16_f32)
        (shapeCast S2048x1024 v Gen.shapeCasts_S1x2048x1024_S2048x1024) (constant S512x1024 .f32 0x00000000#32))
      (broadcastTo S512x1024
        (shapeCast S512x1
          (multiReduction .add [1] S512
            (exp (subf s (broadcastTo S512x2048
              (shapeCast S512x1 (multiReduction .maximumf [1] S512 s 0xFF800000#32 Gen.reduces_S512x2048_S512 (.inl rfl) rfl) Gen.shapeCasts_S512_S512x1)
              Gen.broadcasts_S512x1_S512x2048)))
            0x00000000#32 Gen.reduces_S512x2048_S512 (.inl rfl) rfl)
          Gen.shapeCasts_S512_S512x1)
        Gen.broadcasts_S512x1_S512x1024)
      (ix2 r d)
      = Ideal.div
          (∑ t : Fin 2048, Ideal.exp (s (ix2 r t) - (Finset.univ : Finset (Fin 2048)).fold max ⊥ (fun t' => s (ix2 r t'))) * v (ix3 (0 : Fin 1) t d))
          (∑ t : Fin 2048, Ideal.exp (s (ix2 r t) - (Finset.univ : Finset (Fin 2048)).fold max ⊥ (fun t' => s (ix2 r t')))) := by
  refine (congrArg₂ Ideal.div (pv_apply _ v r d) (rowsum_apply _ r d)).trans ?_
  refine congrArg₂ Ideal.div (Finset.sum_congr rfl fun t _ => ?_) (Finset.sum_congr rfl fun t _ => ?_)
  · exact congrArg (fun m => Ideal.exp (s (ix2 r t) - m) * v (ix3 (0 : Fin 1) t d)) (rowmax_apply s r t)
  · exact congrArg (fun m => Ideal.exp (s (ix2 r t) - m)) (rowmax_apply s r t)

/-- The attention block at entry (0, r, d): the softmax weights of row r summed against column d of the values, divided
    once by the sum of the weights. -/
theorem attn_apply (q : Vec Ideal S1x512x1024 .bf16) (k v : Vec Ideal S1x2048x1024 .bf16) (r : Fin 512) (d : Fin 1024) :
    Gen.k1_pay1 (F := Ideal) q k v (ix3 (0 : Fin 1) r d)
      = Ideal.div (∑ t : Fin 2048, Ideal.exp (sc q k r t - (Finset.univ : Finset (Fin 2048)).fold max ⊥ (fun t' => sc q k r t')) * v (ix3 (0 : Fin 1) t d))
                  (∑ t : Fin 2048, Ideal.exp (sc q k r t - (Finset.univ : Finset (Fin 2048)).fold max ⊥ (fun t' => sc q k r t'))) := by
  unfold Gen.k1_pay1
  refine (shapeCast_ab_1ab_apply _ _ 0 r d).trans ?_
  refine (softmax_apply _ v r d).trans ?_
  have hfold := congrArg (fun f : Fin 2048 → EReal => (Finset.univ : Finset (Fin 2048)).fold max ⊥ f)
    (funext fun t' => score_apply q k r t')
  refine congrArg₂ Ideal.div (Finset.sum_congr rfl fun t _ => ?_) (Finset.sum_congr rfl fun t _ => ?_)
  · exact congrArg₂ (fun a m => Ideal.exp (a - m) * v (ix3 (0 : Fin 1) t d)) (score_apply q k r t) hfold
  · exact congrArg₂ (fun a m => Ideal.exp (a - m)) (score_apply q k r t) hfold

end Cert.KernelIdeal.Pay
end
-- ==== Proof.KI.Final0.lean ====
/-
  The first region's output array as one function of the three arrays it reads.

  The region has 16 points.  At point t it reads rows 512 t .. 512 t + 511 of the activations X (8192 x 1024), the
  whole weight matrix Wc (1024 x 3072) and the whole bias bc (3072), and writes back rows 512 t .. 512 t + 511 of the
  output (8192 x 3072).  Entry (r, j) of the block the body leaves is the sum over k of x0[r, k] * w[k, j] plus b[j]
  (KernelPayloads, proj_apply), so what point t writes back is block t of

      g0 X Wc bc R j = (sum_k X[R, k] * Wc[k, j]) + bc[j],

  the blocks of the 16 points cover the output array (row R lies in the block of point R / 512), and the array
  therefore ends holding g0 of the three arrays as the region finds them.
-/
import proofs.«129911_j76287209112195_2_alg».proof.Proof.KI.Region0
import proofs.«129911_j76287209112195_2_alg».proof.Proof.KernelPayloads
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem

/-- Entry (r, j) of the projection: (sum_k X[r, k] * Wc[k, j]) + bc[j]. -/
def g0 (X : S8192x1024.Idx → EReal) (Wc : S1024x3072.Idx → EReal) (bc : S3072.Idx → EReal) (r : Fin 8192) (j : Fin 3072) : EReal := (∑ k : Fin 1024, X (ix2 r k) * Wc (ix2 k j)) + bc (ix1 j)

/-- The projection as a function on the indices of the output array. -/
def G0 (X : S8192x1024.Idx → EReal) (Wc : S1024x3072.Idx → EReal) (bc : S3072.Idx → EReal) : S8192x3072.Idx → EReal :=
  fun i => g0 X Wc bc (i 0) (i 1)

theorem hz2d : (![0, 0] : Fin 2 → Nat) = fun _ => 0 := funext fun a => by fin_cases a <;> rfl
theorem hz1d : (![0] : Fin 1 → Nat) = fun _ => 0 := funext fun a => by fin_cases a <;> rfl

/-- The index maps, decided over the grid: the activations' block row moves with the output's, which is the point
    itself; every other block index is 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of one block: when x0 is rows 512 T .. 512 T + 511 of X, w is Wc and b is bc, entry y of the body's
    block is entry i of G0, for i the index whose row is 512 T + (row of y) and whose column is y's. -/
theorem point_eq (x0 : Vec Ideal S512x1024 .f32) (w : Vec Ideal S1024x3072 .bf16) (b : Vec Ideal S3072 .f32)
    (X : S8192x1024.Idx → EReal) (Wc : S1024x3072.Idx → EReal) (bc : S3072.Idx → EReal) (T : Nat)
    (hx : ∀ (r : Fin 512) (k : Fin 1024) (R : Fin 8192), R.val = T * 512 + r.val → x0 (ix2 r k) = X (ix2 R k))
    (hw : w = Wc) (hb : b = bc)
    (y : S512x3072.Idx) (i : S8192x3072.Idx) (hi0 : (i 0).val = T * 512 + (y 0).val) (hi1 : (i 1).val = (y 1).val) :
    k0_pay1 (F := Ideal) x0 w b y = G0 X Wc bc i := by
  subst hw hb
  obtain ⟨r, j, rfl⟩ : ∃ (r : Fin 512) (j : Fin 3072), y = ix2 r j := ⟨y 0, y 1, eq_ix2 y⟩
  obtain ⟨R, J, rfl⟩ : ∃ (R : Fin 8192) (J : Fin 3072), i = ix2 R J := ⟨i 0, i 1, eq_ix2 i⟩
  obtain rfl : J = j := Fin.ext hi1
  rw [Pay.proj_apply]
  show _ = (∑ k : Fin 1024, X (ix2 R k) * w (ix2 k J)) + b (ix1 J)
  congr 1
  exact Finset.sum_congr rfl fun k _ => by rw [hx r k R hi0]

variable (V : (c : Dev nD) → (b : Ref sig .tc) → Buf (Elt Ideal) ((c : Thread nD τ).loc b))

/-- The activations' block at point t is rows 512 t .. 512 t + 511 of the array. -/
theorem iblk0_0_apply (c : Dev nD) (t : Fin cfg0.N) (r : Fin 512) (k : Fin 1024) (R : Fin 8192)
    (hR : R.val = win0_3.index t (0 : Fin 2) * 512 + r.val) :
    (iblk0 V c 0 t : Vec Ideal S512x1024 .f32) (ix2 r k) = (V c main_v10 : S8192x1024.Idx → EReal) (ix2 R k) := by
  obtain ⟨e0, e1, -⟩ := idx_facts0 t
  unfold iblk0
  rw [View.read_apply]
  show V c main_v10 _ = V c main_v10 _
  congr 1
  funext a
  apply Fin.ext
  match a with
  | ⟨0, _⟩ => show win0_0.index t (0 : Fin 2) * 512 + 1 * r.val = R.val; omega
  | ⟨1, _⟩ => show win0_0.index t (1 : Fin 2) * 1024 + 1 * k.val = k.val; omega

/-- The weights' block at every point is the whole array. -/
theorem iblk0_1_eq (c : Dev nD) (t : Fin cfg0.N) :
    (iblk0 V c 1 t : Vec Ideal S1024x3072 .bf16) = (V c main_v6 : S1024x3072.Idx → EReal) := by
  obtain ⟨-, -, e2, e3, -⟩ := idx_facts0 t
  funext y
  unfold iblk0
  rw [View.read_apply]
  show V c main_v6 _ = V c main_v6 _
  congr 1
  funext a
  apply Fin.ext
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- The bias's block at every point is the whole array. -/
theorem iblk0_2_eq (c : Dev nD) (t : Fin cfg0.N) :
    (iblk0 V c 2 t : Vec Ideal S3072 .f32) = (V c main_v9 : S3072.Idx → EReal) := by
  obtain ⟨-, -, -, -, e4, -⟩ := idx_facts0 t
  funext y
  unfold iblk0
  rw [View.read_apply]
  show V c main_v9 _ = V c main_v9 _
  congr 1
  funext a
  apply Fin.ext
  match a with
  | ⟨0, _⟩ => show win0_2.index t (0 : Fin 1) * 3072 + 1 * (y 0).val = (y 0).val; omega

/-- What point t writes back is block t of G0 of the three arrays as the region finds them. -/
theorem flushed0_eq (c : Dev nD) (t : Fin cfg0.N) :
    (dat0 V c).flushed 3 t = ((cfg0.win 3).blk t).view.read (Elt Ideal) (G0 (V c main_v10) (V c main_v6) (V c main_v9)) := by
  show (cfg0.win 3).cut (grid0.coords t) ((dat0 V c).after 3 t) = _
  rw [after0_3]
  unfold out0_3
  rw [View.canon_unit_zero hz2d]
  simp only [View.ld_unit_zero (S := S512x1024) hz2d, View.ld_unit_zero (S := S1024x3072) hz2d, View.ld_unit_zero (S := S3072) hz1d]
  funext y
  show k0_pay1 (iblk0 V c 0 t) (iblk0 V c 1 t) (iblk0 V c 2 t) y
    = G0 (V c main_v10) (V c main_v6) (V c main_v9) (((cfg0.win 3).blk t).view.emb y)
  refine point_eq _ _ _ _ _ _ (win0_3.index t (0 : Fin 2)) (fun r k R hR => iblk0_0_apply V c t r k R hR)
    (iblk0_1_eq V c t) (iblk0_2_eq V c t) y _ ?_ ?_
  · show win0_3.index t (0 : Fin 2) * 512 + 1 * (y 0).val = win0_3.index t (0 : Fin 2) * 512 + (y 0).val
    omega
  · obtain ⟨-, -, -, -, -, -, e6⟩ := idx_facts0 t
    show win0_3.index t (1 : Fin 2) * 3072 + 1 * (y 1).val = (y 1).val
    omega

/-- An index of the array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v11).slice (win0_3.rect t)).set ↔ _
  rw [View.set_slice_whole, Rect.mem_set_unit]
  exact Iff.rfl

/-- Row r of the array is in the block of point r / 512. -/
theorem cover0 (i : S8192x3072.Idx) :
    ∃ t : Fin cfg0.N, (cfg0.win 3).flush t = true ∧ i ∈ ((cfg0.win 3).blk t).view.set := by
  have hN : grid0.N = 16 := N_0
  have hi0 : (i 0).val < 8192 := (i 0).isLt
  have hi1 : (i 1).val < 3072 := (i 1).isLt
  let t : Fin cfg0.N := ⟨(i 0).val / 512, by show (i 0).val / 512 < grid0.N; omega⟩
  obtain ⟨-, -, -, -, -, e5, e6⟩ := idx_facts0 t
  have ht : t.val = (i 0).val / 512 := rfl
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The output array after the region is G0 of the three arrays as the region finds them. -/
theorem final0_arr (c : Dev nD) :
    (dat0 V c).arrAt 3 cfg0.N = G0 (V c main_v10) (V c main_v6) (V c main_v9) :=
  (dat0 V c).arrAt_eq_of_cover 3 (G0 (V c main_v10) (V c main_v6) (V c main_v9)) (fun t _ => flushed0_eq V c t) cover0

/-- Entry (r, j) of the output array after the region is g0 of the three arrays at (r, j). -/
theorem final0 (V : (c : Dev nD) → (b : Ref sig .tc) → Buf (Elt Ideal) ((c : Thread nD τ).loc b)) (c : Dev nD) (r : Fin 8192) (j : Fin 3072) :
    ((dat0 V c).arrAt 3 cfg0.N : S8192x3072.Idx → EReal) (ix2 r j) = g0 (V c main_v10) (V c main_v6) (V c main_v9) r j := by
  rw [final0_arr V c]
  rfl

end Cert.KernelIdeal.Hand

end
-- ==== Proof.KI.Final1.lean ====
/-
  The attention region's output array as one function of the projected activations.

  The region's grid is 4 x 4; point t = 4 n + qi reads, off ONE array Q : [4, 2048, 3072], the query block (batch n, rows
  512 qi to 512 qi + 511, columns 0 to 1023), the key block (batch n, all rows, columns 1024 to 2047) and the value block
  (batch n, all rows, columns 2048 to 3071), and writes back block (n, qi, 0) of the [4, 2048, 1024] output.  With
  s(t) = ∑ₑ Q(n, s, e) · Q(n, t, 1024 + e) and m the maximum of s over the 2048 keys, the output's entry (n, s, d) ends at
  (∑ₜ exp(s(t) − m) · Q(n, t, 2048 + d)) / (∑ₜ exp(s(t) − m)).

  The steps: the four windows' block indices, decided over the 16 points; each input block's entry read where its
  window's rectangle stands in Q (a block's coordinate is block index × block size + the coordinate inside the block);
  the body's stored value at a block entry, by the payload's reading; so what point t writes back is block t of the one
  function; the 16 blocks cover the output (entry (n, s, d) is in the block of point 4 n + s / 512).
-/
import proofs.«129911_j76287209112195_2_alg».proof.Proof.KI.Region1
import proofs.«129911_j76287209112195_2_alg».proof.Proof.KernelPayloads
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

/-- the score of query row s against key row t of batch n, read off the projected activations Q : [4,2048,3072] -/
def sc1 (Q : S4x2048x3072.Idx → EReal) (n : Fin 4) (s t : Fin 2048) : EReal :=
  ∑ e : Fin 1024, Q (ix3 n s (⟨e.val, by omega⟩ : Fin 3072)) * Q (ix3 n t (⟨1024 + e.val, by omega⟩ : Fin 3072))

/-- the attention result at batch n, query row s, column d, read off the projected activations -/
def a1 (Q : S4x2048x3072.Idx → EReal) (n : Fin 4) (s : Fin 2048) (d : Fin 1024) : EReal :=
  Ideal.div (∑ t : Fin 2048, Ideal.exp (sc1 Q n s t - (Finset.univ : Finset (Fin 2048)).fold max ⊥ (fun t' => sc1 Q n s t')) * Q (ix3 n t (⟨2048 + d.val, by omega⟩ : Fin 3072)))
            (∑ t : Fin 2048, Ideal.exp (sc1 Q n s t - (Finset.univ : Finset (Fin 2048)).fold max ⊥ (fun t' => sc1 Q n s t')))

variable (V : (c : Dev nD) → (b : Ref sig .tc) → Buf (Elt Ideal) ((c : Thread nD τ).loc b))

theorem hz3 : (![0, 0, 0] : Fin 3 → Nat) = fun _ => 0 := funext fun a => by fin_cases a <;> rfl

/-- The four windows' block indices at grid point t = 4 n + qi, decided over the 16 points: the query and the output
    windows stand at (n, qi, 0), the key window at (n, 0, 1), the value window at (n, 0, 2). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_3.index t (0 : Fin 3) = t.val / 4 ∧ win1_3.index t (1 : Fin 3) = t.val % 4 ∧ win1_3.index t (2 : Fin 3) = 0 :=
  (by decide +kernel : ∀ t : Fin grid1.N, _)

/-- the output array as one function of the projected activations -/
abbrev G1 (Q : S4x2048x3072.Idx → EReal) : S4x2048x1024.Idx → EReal := fun i => a1 Q (i 0) (i 1) (i 2)

/-- An entry of the query block at point t is the activations' entry at batch t / 4, row (t % 4) * 512 + the block's row,
    the same column. -/
theorem iblk1_0_apply (c : Dev nD) (t : Fin cfg1.N) (x : S1x512x1024.Idx) (k : S4x2048x3072.Idx)
    (hk0 : (k 0).val = t.val / 4) (hk1 : (k 1).val = t.val % 4 * 512 + (x 1).val) (hk2 : (k 2).val = (x 2).val) :
    (iblk1 V c 0 t : Vec Ideal S1x512x1024 .bf16) x = (V c main_v12 : S4x2048x3072.Idx → EReal) k := by
  obtain ⟨e0, e1, e2, -⟩ := idx_facts1 t
  have hx0 : (x 0).val < 1 := (x 0).isLt
  unfold iblk1
  rw [View.read_apply]
  show V c main_v12 _ = V c main_v12 _
  congr 1
  funext a
  apply Fin.ext
  match a with
  | ⟨0, _⟩ => show win1_0.index t (0 : Fin 3) * 1 + 1 * (x 0).val = (k 0).val; omega
  | ⟨1, _⟩ => show win1_0.index t (1 : Fin 3) * 512 + 1 * (x 1).val = (k 1).val; omega
  | ⟨2, _⟩ => show win1_0.index t (2 : Fin 3) * 1024 + 1 * (x 2).val = (k 2).val; omega

/-- An entry of the key block at point t is the activations' entry at batch t / 4, the same row, column 1024 + the block's. -/
theorem iblk1_1_apply (c : Dev nD) (t : Fin cfg1.N) (x : S1x2048x1024.Idx) (k : S4x2048x3072.Idx)
    (hk0 : (k 0).val = t.val / 4) (hk1 : (k 1).val = (x 1).val) (hk2 : (k 2).val = 1024 + (x 2).val) :
    (iblk1 V c 1 t : Vec Ideal S1x2048x1024 .bf16) x = (V c main_v12 : S4x2048x3072.Idx → EReal) k := by
  obtain ⟨-, -, -, e0, e1, e2, -⟩ := idx_facts1 t
  have hx0 : (x 0).val < 1 := (x 0).isLt
  unfold iblk1
  rw [View.read_apply]
  show V c main_v12 _ = V c main_v12 _
  congr 1
  funext a
  apply Fin.ext
  match a with
  | ⟨0, _⟩ => show win1_1.index t (0 : Fin 3) * 1 + 1 * (x 0).val = (k 0).val; omega
  | ⟨1, _⟩ => show win1_1.index t (1 : Fin 3) * 2048 + 1 * (x 1).val = (k 1).val; omega
  | ⟨2, _⟩ => show win1_1.index t (2 : Fin 3) * 1024 + 1 * (x 2).val = (k 2).val; omega

/-- An entry of the value block at point t is the activations' entry at batch t / 4, the same row, column 2048 + the block's. -/
theorem iblk1_2_apply (c : Dev nD) (t : Fin cfg1.N) (x : S1x2048x1024.Idx) (k : S4x2048x3072.Idx)
    (hk0 : (k 0).val = t.val / 4) (hk1 : (k 1).val = (x 1).val) (hk2 : (k 2).val = 2048 + (x 2).val) :
    (iblk1 V c 2 t : Vec Ideal S1x2048x1024 .bf16) x = (V c main_v12 : S4x2048x3072.Idx → EReal) k := by
  obtain ⟨-, -, -, -, -, -, e0, e1, e2, -⟩ := idx_facts1 t
  have hx0 : (x 0).val < 1 := (x 0).isLt
  unfold iblk1
  rw [View.read_apply]
  show V c main_v12 _ = V c main_v12 _
  congr 1
  funext a
  apply Fin.ext
  match a with
  | ⟨0, _⟩ => show win1_2.index t (0 : Fin 3) * 1 + 1 * (x 0).val = (k 0).val; omega
  | ⟨1, _⟩ => show win1_2.index t (1 : Fin 3) * 2048 + 1 * (x 1).val = (k 1).val; omega
  | ⟨2, _⟩ => show win1_2.index t (2 : Fin 3) * 1024 + 1 * (x 2).val = (k 2).val; omega

/-- The body's value at a block entry (u, r, d), given where the entries of the three loaded blocks sit in the projected
    activations Q: the query block's row r is Q's row s of batch n (columns 0 to 1023), the key block is batch n's
    columns 1024 to 2047, the value block its columns 2048 to 3071. -/
theorem point1 (Q : S4x2048x3072.Idx → EReal) (x0 : Vec Ideal S1x512x1024 .bf16) (x1 x2 : Vec Ideal S1x2048x1024 .bf16)
    (n : Fin 4) (s : Fin 2048) (d' : Fin 1024) (u : Fin 1) (r : Fin 512) (d : Fin 1024) (hd : d'.val = d.val)
    (h0 : ∀ e : Fin 1024, x0 (ix3 (0 : Fin 1) r e) = Q (ix3 n s (⟨e.val, by omega⟩ : Fin 3072)))
    (h1 : ∀ (t : Fin 2048) (e : Fin 1024), x1 (ix3 (0 : Fin 1) t e) = Q (ix3 n t (⟨1024 + e.val, by omega⟩ : Fin 3072)))
    (h2 : ∀ t : Fin 2048, x2 (ix3 (0 : Fin 1) t d) = Q (ix3 n t (⟨2048 + d'.val, by omega⟩ : Fin 3072))) :
    k1_pay1 (F := Ideal) x0 x1 x2 (ix3 u r d) = a1 Q n s d' := by
  obtain rfl : u = 0 := Subsingleton.elim _ _
  rw [Pay.attn_apply]
  have hsc : ∀ t, Pay.sc x0 x1 r t = sc1 Q n s t := fun t => Finset.sum_congr rfl fun e _ => by rw [h0, h1]
  unfold a1
  simp only [hsc, h2]

/-- What grid point t writes back is block t of the one function G1 of the projected activations as the region finds them. -/
theorem flushed1_eq (c : Dev nD) (t : Fin cfg1.N) :
    (dat1 V c).flushed 3 t = ((cfg1.win 3).blk t).view.read (Elt Ideal) (G1 (V c main_v12)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  funext j
  obtain ⟨-, -, -, -, -, -, -, -, -, e0, e1, e2⟩ := idx_facts1 t
  have hj0 : (j 0).val < 1 := (j 0).isLt
  have hi0 : ((((cfg1.win 3).blk t).view.emb j) 0).val = t.val / 4 := by
    show win1_3.index t (0 : Fin 3) * 1 + 1 * (j 0).val = _
    omega
  have hi1 : ((((cfg1.win 3).blk t).view.emb j) 1).val = t.val % 4 * 512 + (j 1).val := by
    show win1_3.index t (1 : Fin 3) * 512 + 1 * (j 1).val = _
    omega
  have hi2 : ((((cfg1.win 3).blk t).view.emb j) 2).val = (j 2).val := by
    show win1_3.index t (2 : Fin 3) * 1024 + 1 * (j 2).val = _
    omega
  show k1_pay1 (F := Ideal) (iblk1 V c 0 t) (iblk1 V c 1 t) (iblk1 V c 2 t) j
      = a1 (V c main_v12) ((((cfg1.win 3).blk t).view.emb j) 0) ((((cfg1.win 3).blk t).view.emb j) 1)
          ((((cfg1.win 3).blk t).view.emb j) 2)
  refine (congrArg (k1_pay1 (F := Ideal) (iblk1 V c 0 t) (iblk1 V c 1 t) (iblk1 V c 2 t)) (eq_ix3 (j : S1x512x1024.Idx))).trans ?_
  refine point1 (V c main_v12) _ _ _ _ _ _ (j 0) (j 1) (j 2) hi2 (fun e => ?_) (fun t' e => ?_) (fun t' => ?_)
  · exact iblk1_0_apply V c t _ _ hi0 hi1 rfl
  · exact iblk1_1_apply V c t _ _ hi0 rfl rfl
  · exact iblk1_2_apply V c t _ _ hi0 rfl (congrArg (2048 + ·) hi2)

/-- An index of the output array is in point t's block iff each coordinate is in the block's range on its axis. -/
theorem mem_blk1 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v13).slice (win1_3.rect t)).set ↔ _
  rw [View.set_slice_whole, Rect.mem_set_unit]
  exact Iff.rfl

/-- Every entry (n, s, d) of the output array is in the block of the point 4 n + s / 512. -/
theorem cover1 (i : S4x2048x1024.Idx) :
    ∃ t : Fin cfg1.N, (cfg1.win 3).flush t = true ∧ i ∈ ((cfg1.win 3).blk t).view.set := by
  have hN : grid1.N = 16 := N_1
  have hi0 : (i 0).val < 4 := (i 0).isLt
  have hi1 : (i 1).val < 2048 := (i 1).isLt
  have hi2 : (i 2).val < 1024 := (i 2).isLt
  have hlt : 4 * (i 0).val + (i 1).val / 512 < grid1.N := by omega
  obtain ⟨-, -, -, -, -, -, -, -, -, e0, e1, e2⟩ := idx_facts1 ⟨4 * (i 0).val + (i 1).val / 512, hlt⟩
  refine ⟨⟨4 * (i 0).val + (i 1).val / 512, hlt⟩, flush1_3 _, ?_⟩
  rw [mem_blk1]
  intro a
  match a with
  | ⟨0, _⟩ =>
    show win1_3.index ⟨4 * (i 0).val + (i 1).val / 512, hlt⟩ (0 : Fin 3) * 1 ≤ (i 0).val
      ∧ (i 0).val < win1_3.index ⟨4 * (i 0).val + (i 1).val / 512, hlt⟩ (0 : Fin 3) * 1 + 1
    rw [e0]; show (4 * (i 0).val + (i 1).val / 512) / 4 * 1 ≤ _ ∧ _ < (4 * (i 0).val + (i 1).val / 512) / 4 * 1 + 1; omega
  | ⟨1, _⟩ =>
    show win1_3.index ⟨4 * (i 0).val + (i 1).val / 512, hlt⟩ (1 : Fin 3) * 512 ≤ (i 1).val
      ∧ (i 1).val < win1_3.index ⟨4 * (i 0).val + (i 1).val / 512, hlt⟩ (1 : Fin 3) * 512 + 512
    rw [e1]; show (4 * (i 0).val + (i 1).val / 512) % 4 * 512 ≤ _ ∧ _ < (4 * (i 0).val + (i 1).val / 512) % 4 * 512 + 512; omega
  | ⟨2, _⟩ =>
    show win1_3.index ⟨4 * (i 0).val + (i 1).val / 512, hlt⟩ (2 : Fin 3) * 1024 ≤ (i 2).val
      ∧ (i 2).val < win1_3.index ⟨4 * (i 0).val + (i 1).val / 512, hlt⟩ (2 : Fin 3) * 1024 + 1024
    rw [e2]; omega

/-- The output array after the region: the attention of the projected activations, entry by entry. -/
theorem final1 (c : Dev nD) (n : Fin 4) (s : Fin 2048) (d : Fin 1024) :
    ((dat1 V c).arrAt 3 cfg1.N : S4x2048x1024.Idx → EReal) (ix3 n s d) = a1 (V c main_v12) n s d :=
  congrFun ((dat1 V c).arrAt_eq_of_cover 3 (G1 (V c main_v12)) (fun t _ => flushed1_eq V c t) cover1) (ix3 n s d)

end Cert.KernelIdeal.Hand
end
-- ==== Proof.LibNary3.lean ====
/-
  A host operation over a LITERAL family of three references (a `stablehlo.concatenate` of three operands, printed
  `nary ![a, b, c] …`), read back with each operand's contents AT ITS OWN REFERENCE, so that a rewriting pass over a
  stretch of host operations goes on into the operands (under the binder of the general `nary` lemma the reference
  `![a, b, c] k` is no literal and no result lemma applies to it). The three-operand counterpart of the library's
  four-operand lemma, with the one-pass tactic over the library's result lemmas and this one, the fold of a stretch
  of host operations over a concatenation of two stretches, and a stretch split at such an operation.
-/
import Idealize.ShloMosaic.Lib.StableHlo.Run

namespace Idealize.ShloMosaic.StableHlo

variable {nD : Nat} {τ : Topo} {sig : RefSig} {Val : EltTy → Type}
variable {x a b y : Ref sig .tc}

/-- The result of a three-operand host operation at its own result buffer: its function of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, restated for `simp` (the result reference un-indexed, as the library's primed lemmas are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A stretch of host operations read back at one reference as ONE `simp` pass: the library's pass with the
    three- and four-operand literal-family lemmas in place of the general `nary` one. -/
macro "host_results_simp" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- A typed reference's two casts, there and back, are the identity (whatever the reference). -/
theorem ofBuf_toBuf {T : BufTy} (x : TRef sig T) (v : T.Contents Val) : x.ofBuf (x.toBuf v) = v := by
  unfold TRef.toBuf TRef.ofBuf; rw [cast_cast]; exact cast_eq _ _

/-- The fold of a stretch of host operations over a concatenation is the fold of the second part over the fold of the
    first. -/
theorem after_append (A B : List (HloOp τ sig Val)) (V : Valuation τ sig Val) : after (A ++ B) V = after B (after A V) := by
  induction A generalizing V with
  | nil => rfl
  | cons op A ih => exact ih (op.result V)

/-- A stretch that ends in a three-operand operation (and operations after it that do not write its result): the
    result is the operation's function of the operands as the stretch BEFORE it leaves them. -/
theorem after_pre_nary3 (pre tail : List (HloOp τ sig Val))
    (f : ((k : Fin 3) → ((![x, a, b] : Fin 3 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b] y f hxs hy :: tail) V (Proc.devRef .tc y)
      = f (Fin.cons (after pre V (Proc.devRef .tc x)) (Fin.cons (after pre V (Proc.devRef .tc a)) (Fin.cons (after pre V (Proc.devRef .tc b)) (fun i => i.elim0)))) := by
  rw [after_append, after_cons, after_of_forall_not_mem tail _ htail]
  exact nary3_result f hxs hy _

/-- The same for a four-operand operation. -/
theorem after_pre_nary4 {e : Ref sig .tc} (pre tail : List (HloOp τ sig Val))
    (f : ((k : Fin 4) → ((![x, a, b, e] : Fin 4 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b, e] y f hxs hy :: tail) V (Proc.devRef .tc y)
      = f (Fin.cons (after pre V (Proc.devRef .tc x)) (Fin.cons (after pre V (Proc.devRef .tc a)) (Fin.cons (after pre V (Proc.devRef .tc b)) (Fin.cons (after pre V (Proc.devRef .tc e)) (fun i => i.elim0))))) := by
  rw [after_append, after_cons, after_of_forall_not_mem tail _ htail]
  exact nary4_result f hxs hy _

/-- A property of every entry of two lists holds of every entry of their concatenation. -/
theorem forall_append {α : Type} {P : α → Prop} {A B : List α} (ha : A.Forall P) (hb : B.Forall P) : (A ++ B).Forall P :=
  List.forall_iff_forall_mem.mpr fun x hx =>
    (List.mem_append.mp hx).elim (List.forall_iff_forall_mem.mp ha x) (List.forall_iff_forall_mem.mp hb x)

end Idealize.ShloMosaic.StableHlo
-- ==== Proof.KernelHost.lean ====
/-
  The host operations of the kernel's main function read at an index, over the extended reals.

  Before the first region the three weight matrices are transposed, the query weights and bias multiplied by the
  constant c, the three transposed matrices joined side by side into Wcat[d, j] (columns 0..1023 the query block,
  1024..2047 the key block, 2048..3071 the value block), the three biases joined into bcat[j], and the activations
  x[n, s, d] flattened to rows n * 2048 + s.  Between the regions the projected rows are unflattened.
  Every operation is a relabelling of indices or a pointwise product, so each entry of the joined arrays is one
  entry of an argument array, possibly times c.
-/
import proofs.«129911_j76287209112195_2_alg».proof.Proof.Gen.KernelIdeal.Regions
import proofs.«129911_j76287209112195_2_alg».proof.Proof.LibNary3
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HostVal

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-- A stretch of host operations read back at one reference, an operation at a time: each operation's result at its
    own reference is its function's value, at another reference what was there; a three-operand operation is read with
    each operand at its own reference, so that the pass goes on into the operands. -/
macro "host_results_rw" : tactic =>
  `(tactic| (simp only [StableHlo.after_cons, StableHlo.after_nil]
             repeat (first
               | rw [StableHlo.nullary_result] | rw [StableHlo.unary_result] | rw [StableHlo.binary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The argument arrays as functions of an index -/

/-- The activations x[n, s, d]. -/
abbrev A0 : S4x2048x1024.Idx → EReal := m ((c : Thread nD τ).loc main_arg0)
/-- The query weights Wq[e, d]. -/
abbrev A1 : S1024x1024.Idx → EReal := m ((c : Thread nD τ).loc main_arg1)
/-- The query bias bq[e]. -/
abbrev A2 : S1024.Idx → EReal := m ((c : Thread nD τ).loc main_arg2)
/-- The key weights Wk[e, d]. -/
abbrev A3 : S1024x1024.Idx → EReal := m ((c : Thread nD τ).loc main_arg3)
/-- The key bias bk[e]. -/
abbrev A4 : S1024.Idx → EReal := m ((c : Thread nD τ).loc main_arg4)
/-- The value weights Wv[e, d]. -/
abbrev A5 : S1024x1024.Idx → EReal := m ((c : Thread nD τ).loc main_arg5)
/-- The value bias bv[e]. -/
abbrev A6 : S1024.Idx → EReal := m ((c : Thread nD τ).loc main_arg6)

/-! ## The reshapes -/

/-- The flattened activations, whole: the shape cast of the argument array. -/
theorem v10_whole : (V1 m c main_v10 : S8192x1024.Idx → EReal)
    = shapeCast S8192x1024 (A0 m c) shapeCasts_S4x2048x1024_S8192x1024 := by
  dsimp only [V1, V0, hostOps0]
  after_results
  rfl

/-- Row n * 2048 + s of the flattened activations is row (n, s) of the argument. -/
theorem xflat (n : Fin 4) (s : Fin 2048) (d : Fin 1024) :
    (V1 m c main_v10 : S8192x1024.Idx → EReal) (ix2 (⟨n.val * 2048 + s.val, by omega⟩ : Fin 8192) d)
      = A0 m c (ix3 n s d) := by
  rw [v10_whole]
  refine shapeCast_apply _ _ _ _ ?_
  exact (Shape.rowMajor_val_three (d := ![4, 2048, 1024]) (ix3 n s d)).trans
    (Shape.rowMajor_val_two (d := ![8192, 1024]) (ix2 (⟨n.val * 2048 + s.val, by omega⟩ : Fin 8192) d)).symm

/-! ## The joined biases -/

/-- The joined biases, whole: the query bias times c, the key bias, the value bias, joined in that order. -/
theorem v9_whole : (V1 m c main_v9 : S3072.Idx → EReal)
    = concatenate S3072 0 [⟨S1024, mulf (A2 m c)
          (broadcastInDim S1024 ![] bcast_S_S1024 (constant (F := Ideal) S_ .f32 0x3D000000#32))⟩,
        ⟨S1024, A4 m c⟩, ⟨S1024, A6 m c⟩] concatenates_S1024_S1024_S1024_S3072_d0 := by
  dsimp only [V1, V0, hostOps0]
  host_results_rw
  rfl

/-- Three vectors of length 1024 joined, read in the first third: the first vector. -/
theorem cat3_vec_0 (x0 x1 x2 : S1024.Idx → EReal) (e : Fin 1024) :
    concatenate S3072 0 [⟨S1024, x0⟩, ⟨S1024, x1⟩, ⟨S1024, x2⟩] concatenates_S1024_S1024_S1024_S3072_d0
      (ix1 (⟨e.val, by omega⟩ : Fin 3072)) = x0 (ix1 e) := by
  refine concatenate_apply_piece (t := S3072) 0 _ _ _ 0 (by simp) S1024 x0 rfl rfl 0 rfl (ix1 e) ?_ ?_
  · intro b hb; match b with | ⟨0, _⟩ => exact absurd rfl hb
  · exact Nat.zero_add _

/-- Read in the second third: the second vector. -/
theorem cat3_vec_1 (x0 x1 x2 : S1024.Idx → EReal) (e : Fin 1024) :
    concatenate S3072 0 [⟨S1024, x0⟩, ⟨S1024, x1⟩, ⟨S1024, x2⟩] concatenates_S1024_S1024_S1024_S3072_d0
      (ix1 (⟨1024 + e.val, by omega⟩ : Fin 3072)) = x1 (ix1 e) := by
  refine concatenate_apply_piece (t := S3072) 0 _ _ _ 1 (by simp) S1024 x1 rfl rfl 1024 rfl (ix1 e) ?_ ?_
  · intro b hb; match b with | ⟨0, _⟩ => exact absurd rfl hb
  · rfl

/-- Read in the last third: the third vector. -/
theorem cat3_vec_2 (x0 x1 x2 : S1024.Idx → EReal) (e : Fin 1024) :
    concatenate S3072 0 [⟨S1024, x0⟩, ⟨S1024, x1⟩, ⟨S1024, x2⟩] concatenates_S1024_S1024_S1024_S3072_d0
      (ix1 (⟨2048 + e.val, by omega⟩ : Fin 3072)) = x2 (ix1 e) := by
  refine concatenate_apply_piece (t := S3072) 0 _ _ _ 2 (by simp) S1024 x2 rfl rfl 2048 rfl (ix1 e) ?_ ?_
  · intro b hb; match b with | ⟨0, _⟩ => exact absurd rfl hb
  · rfl

/-- Entry e of the joined biases is the query bias at e times c. -/
theorem bcat_q (e : Fin 1024) :
    (V1 m c main_v9 : S3072.Idx → EReal) (ix1 (⟨e.val, by omega⟩ : Fin 3072))
      = A2 m c (ix1 e) * Ideal.ofBits .f32 0x3D000000#32 := by
  rw [v9_whole, cat3_vec_0]
  rfl

/-- Entry 1024 + e of the joined biases is the key bias at e. -/
theorem bcat_k (e : Fin 1024) :
    (V1 m c main_v9 : S3072.Idx → EReal) (ix1 (⟨1024 + e.val, by omega⟩ : Fin 3072)) = A4 m c (ix1 e) := by
  rw [v9_whole, cat3_vec_1]

/-- Entry 2048 + e of the joined biases is the value bias at e. -/
theorem bcat_v (e : Fin 1024) :
    (V1 m c main_v9 : S3072.Idx → EReal) (ix1 (⟨2048 + e.val, by omega⟩ : Fin 3072)) = A6 m c (ix1 e) := by
  rw [v9_whole, cat3_vec_2]

/-! ## The joined weights -/

/-- The joined weights, whole: the transposed query weights times c, the transposed key weights, the transposed value
    weights, joined side by side, then narrowed (the identity on the extended reals). -/
theorem v6_whole : (V1 m c main_v6 : S1024x3072.Idx → EReal)
    = truncf (F := Ideal) .bf16 (concatenate S1024x3072 1 [⟨S1024x1024, mulf (transpose S1024x1024 [1, 0] (A1 m c) transposes_S1024x1024_S1024x1024_1_0)
          (broadcastInDim S1024x1024 ![] bcast_S_S1024x1024 (constant (F := Ideal) S_ .f32 0x3D000000#32))⟩,
        ⟨S1024x1024, transpose S1024x1024 [1, 0] (A3 m c) transposes_S1024x1024_S1024x1024_1_0⟩,
        ⟨S1024x1024, transpose S1024x1024 [1, 0] (A5 m c) transposes_S1024x1024_S1024x1024_1_0⟩]
        concatenates_S1024x1024_S1024x1024_S1024x1024_S1024x3072_d1 : S1024x3072.Idx → Ideal .f32) bitsLt_bf16_f32 := by
  dsimp only [V1, V0, hostOps0]
  host_results_rw
  rfl

/-- Three 1024 x 1024 matrices joined side by side, read in the first block of columns: the first matrix. -/
theorem cat3_mat_0 (x0 x1 x2 : S1024x1024.Idx → EReal) (k e : Fin 1024) :
    concatenate S1024x3072 1 [⟨S1024x1024, x0⟩, ⟨S1024x1024, x1⟩, ⟨S1024x1024, x2⟩]
      concatenates_S1024x1024_S1024x1024_S1024x1024_S1024x3072_d1 (ix2 k (⟨e.val, by omega⟩ : Fin 3072)) = x0 (ix2 k e) := by
  refine concatenate_apply_piece (t := S1024x3072) 1 _ _ _ 0 (by simp) S1024x1024 x0 rfl rfl 0 rfl (ix2 k e) ?_ ?_
  · intro b hb; match b with | ⟨0, _⟩ => rfl | ⟨1, _⟩ => exact absurd rfl hb
  · exact Nat.zero_add _

/-- Read in the second block of columns: the second matrix. -/
theorem cat3_mat_1 (x0 x1 x2 : S1024x1024.Idx → EReal) (k e : Fin 1024) :
    concatenate S1024x3072 1 [⟨S1024x1024, x0⟩, ⟨S1024x1024, x1⟩, ⟨S1024x1024, x2⟩]
      concatenates_S1024x1024_S1024x1024_S1024x1024_S1024x3072_d1 (ix2 k (⟨1024 + e.val, by omega⟩ : Fin 3072)) = x1 (ix2 k e) := by
  refine concatenate_apply_piece (t := S1024x3072) 1 _ _ _ 1 (by simp) S1024x1024 x1 rfl rfl 1024 rfl (ix2 k e) ?_ ?_
  · intro b hb; match b with | ⟨0, _⟩ => rfl | ⟨1, _⟩ => exact absurd rfl hb
  · rfl

/-- Read in the last block of columns: the third matrix. -/
theorem cat3_mat_2 (x0 x1 x2 : S1024x1024.Idx → EReal) (k e : Fin 1024) :
    concatenate S1024x3072 1 [⟨S1024x1024, x0⟩, ⟨S1024x1024, x1⟩, ⟨S1024x1024, x2⟩]
      concatenates_S1024x1024_S1024x1024_S1024x1024_S1024x3072_d1 (ix2 k (⟨2048 + e.val, by omega⟩ : Fin 3072)) = x2 (ix2 k e) := by
  refine concatenate_apply_piece (t := S1024x3072) 1 _ _ _ 2 (by simp) S1024x1024 x2 rfl rfl 2048 rfl (ix2 k e) ?_ ?_
  · intro b hb; match b with | ⟨0, _⟩ => rfl | ⟨1, _⟩ => exact absurd rfl hb
  · rfl

/-- Entry (k, e) of the joined weights is Wq[e, k] times c. -/
theorem wcat_q (k e : Fin 1024) :
    (V1 m c main_v6 : S1024x3072.Idx → EReal) (ix2 k (⟨e.val, by omega⟩ : Fin 3072))
      = A1 m c (ix2 e k) * Ideal.ofBits .f32 0x3D000000#32 := by
  rw [v6_whole]
  refine (cat3_mat_0 _ _ _ k e).trans ?_
  refine (congrArg (· * Ideal.ofBits .f32 0x3D000000#32) (transpose_ix2_apply (A1 m c) transposes_S1024x1024_S1024x1024_1_0 k e))

/-- Entry (k, 1024 + e) of the joined weights is Wk[e, k]. -/
theorem wcat_k (k e : Fin 1024) :
    (V1 m c main_v6 : S1024x3072.Idx → EReal) (ix2 k (⟨1024 + e.val, by omega⟩ : Fin 3072)) = A3 m c (ix2 e k) := by
  rw [v6_whole]
  exact (cat3_mat_1 _ _ _ k e).trans (transpose_ix2_apply (A3 m c) transposes_S1024x1024_S1024x1024_1_0 k e)

/-- Entry (k, 2048 + e) of the joined weights is Wv[e, k]. -/
theorem wcat_v (k e : Fin 1024) :
    (V1 m c main_v6 : S1024x3072.Idx → EReal) (ix2 k (⟨2048 + e.val, by omega⟩ : Fin 3072)) = A5 m c (ix2 e k) := by
  rw [v6_whole]
  exact (cat3_mat_2 _ _ _ k e).trans (transpose_ix2_apply (A5 m c) transposes_S1024x1024_S1024x1024_1_0 k e)
variable (outs : Outs (F := Ideal))

/-- The unflattened projections, whole: the shape cast of what the first region leaves. -/
theorem v12_whole : (V3 m outs c main_v12 : S4x2048x3072.Idx → EReal)
    = shapeCast S4x2048x3072 (outs 2 main_v11 c : S8192x3072.Idx → EReal) shapeCasts_S8192x3072_S4x2048x3072 := by
  dsimp only [V3, V2, hostOps1]
  after_results
  rw [Function.update_self]
  rfl

/-- Row (n, s) of the unflattened projections is row n * 2048 + s of what the first region leaves. -/
theorem qkv3 (n : Fin 4) (s : Fin 2048) (j : Fin 3072) :
    (V3 m outs c main_v12 : S4x2048x3072.Idx → EReal) (ix3 n s j)
      = (outs 2 main_v11 c : S8192x3072.Idx → EReal) (ix2 (⟨n.val * 2048 + s.val, by omega⟩ : Fin 8192) j) := by
  rw [v12_whole]
  refine shapeCast_apply _ _ _ _ ?_
  exact (Shape.rowMajor_val_two (d := ![8192, 3072]) (ix2 (⟨n.val * 2048 + s.val, by omega⟩ : Fin 8192) j)).trans
    (Shape.rowMajor_val_three (d := ![4, 2048, 3072]) (ix3 n s j)).symm

end Cert.KernelIdeal.HostVal
-- ==== Proof.AttnSpec.lean ====
/-
  The two arrangements of one attention layer, as plain functions on the extended reals.

  The inputs: activations x[n, s, d] (4 x 2048 x 1024), three square weight matrices W[e, d] and three
  bias vectors b[e] (1024).  A projection is  lin x W b n s e = (sum_d x[n,s,d] * W[e,d]) + b[e].

  The REFERENCE arrangement scores a query row q against a key row k by the quotient
  (sum_e Q[n,q,e] * K[n,k,e]) / c32, takes the row's softmax (the maximum subtracted, the exponentials
  divided by their sum) and sums the softmax weights against the value rows:
  out[n,q,d] = sum_k (p[n,q,k] / sum_k' p[n,q,k']) * V[n,k,d].

  The KERNEL arrangement folds the scale c into the query projection's weights and bias
  (W[e,d] * c, b[e] * c), scores by the plain sum of products, and divides ONCE, after the weighted sum:
  out[n,q,d] = (sum_k p[n,q,k] * V[n,k,d]) / (sum_k p[n,q,k]).

  For real inputs, c = 1/32 and c32 = 32 the two are equal (proved in AttnAlgebra).
-/
import Mathlib.Data.EReal.Basic
import Mathlib.Algebra.BigOperators.Group.Finset.Basic
import Idealize.ShloMosaic.PureOps.Ideal
import Idealize.ShloMosaic.Lib.ValueIdx

noncomputable section

namespace Cert.AttnSpec

open Idealize.ShloMosaic

/-- Activations x[n, s, d]. -/
abbrev Act := Fin 4 → Fin 2048 → Fin 1024 → EReal
/-- A weight matrix W[e, d]. -/
abbrev Mat := Fin 1024 → Fin 1024 → EReal
/-- A bias vector b[e]. -/
abbrev Bias := Fin 1024 → EReal

/-- An activation array read by coordinates. -/
def act (a : (⟨3, ![4, 2048, 1024]⟩ : Shape).Idx → EReal) : Act := fun n s d => a (ValueIdx.ix3 n s d)
/-- A weight array read by coordinates. -/
def mat (w : (⟨2, ![1024, 1024]⟩ : Shape).Idx → EReal) : Mat := fun e d => w (ValueIdx.ix2 e d)
/-- A bias array read by its coordinate. -/
def bias (b : (⟨1, ![1024]⟩ : Shape).Idx → EReal) : Bias := fun e => b (ValueIdx.ix1 e)

/-- One linear projection: (sum_d x[n,s,d] * W[e,d]) + b[e]. -/
def lin (x : Act) (W : Mat) (b : Bias) (n : Fin 4) (s : Fin 2048) (e : Fin 1024) : EReal :=
  (∑ d : Fin 1024, x n s d * W e d) + b e

/-! ## The reference arrangement -/

/-- The scaled score of query row q against key row k: (sum_e Q[n,q,e] * K[n,k,e]) / c32. -/
def refScore (c32 : EReal) (x : Act) (Wq : Mat) (bq : Bias) (Wk : Mat) (bk : Bias) (n : Fin 4) (q k : Fin 2048) : EReal :=
  Ideal.div (∑ e : Fin 1024, lin x Wq bq n q e * lin x Wk bk n k e) c32

/-- The row maximum of the scores (the fold of max from -inf over the keys). -/
def refMax (c32 : EReal) (x : Act) (Wq : Mat) (bq : Bias) (Wk : Mat) (bk : Bias) (n : Fin 4) (q : Fin 2048) : EReal :=
  (Finset.univ : Finset (Fin 2048)).fold max ⊥ (fun k => refScore c32 x Wq bq Wk bk n q k)

/-- exp (score - row maximum). -/
def refP (c32 : EReal) (x : Act) (Wq : Mat) (bq : Bias) (Wk : Mat) (bk : Bias) (n : Fin 4) (q k : Fin 2048) : EReal :=
  Ideal.exp (refScore c32 x Wq bq Wk bk n q k - refMax c32 x Wq bq Wk bk n q)

/-- The reference's result: the softmax weights summed against the value rows. -/
def refOut (c32 : EReal) (x : Act) (Wq : Mat) (bq : Bias) (Wk : Mat) (bk : Bias) (Wv : Mat) (bv : Bias)
    (n : Fin 4) (q : Fin 2048) (d : Fin 1024) : EReal :=
  ∑ k : Fin 2048, Ideal.div (refP c32 x Wq bq Wk bk n q k) (∑ k' : Fin 2048, refP c32 x Wq bq Wk bk n q k')
    * lin x Wv bv n k d

/-! ## The kernel arrangement -/

/-- The query projection with the scale folded into weights and bias:
    (sum_d x[n,s,d] * (W[e,d] * c)) + b[e] * c. -/
def kerQ (c : EReal) (x : Act) (Wq : Mat) (bq : Bias) (n : Fin 4) (s : Fin 2048) (e : Fin 1024) : EReal :=
  (∑ d : Fin 1024, x n s d * (Wq e d * c)) + bq e * c

/-- The score: the plain sum of products of the pre-scaled query row and the key row. -/
def kerScore (c : EReal) (x : Act) (Wq : Mat) (bq : Bias) (Wk : Mat) (bk : Bias) (n : Fin 4) (q k : Fin 2048) : EReal :=
  ∑ e : Fin 1024, kerQ c x Wq bq n q e * lin x Wk bk n k e

/-- The row maximum of the scores. -/
def kerMax (c : EReal) (x : Act) (Wq : Mat) (bq : Bias) (Wk : Mat) (bk : Bias) (n : Fin 4) (q : Fin 2048) : EReal :=
  (Finset.univ : Finset (Fin 2048)).fold max ⊥ (fun k => kerScore c x Wq bq Wk bk n q k)

/-- exp (score - row maximum). -/
def kerP (c : EReal) (x : Act) (Wq : Mat) (bq : Bias) (Wk : Mat) (bk : Bias) (n : Fin 4) (q k : Fin 2048) : EReal :=
  Ideal.exp (kerScore c x Wq bq Wk bk n q k - kerMax c x Wq bq Wk bk n q)

/-- The kernel's result: the weighted sum of value rows divided once by the sum of the weights. -/
def kerOut (c : EReal) (x : Act) (Wq : Mat) (bq : Bias) (Wk : Mat) (bk : Bias) (Wv : Mat) (bv : Bias)
    (n : Fin 4) (q : Fin 2048) (d : Fin 1024) : EReal :=
  Ideal.div (∑ k : Fin 2048, kerP c x Wq bq Wk bk n q k * lin x Wv bv n k d)
    (∑ k : Fin 2048, kerP c x Wq bq Wk bk n q k)

end Cert.AttnSpec

end
-- ==== Proof.KI.KernelValue.lean ====
import proofs.«129911_j76287209112195_2_alg».proof.Proof.KI.Run
import proofs.«129911_j76287209112195_2_alg».proof.Proof.KI.Final0
import proofs.«129911_j76287209112195_2_alg».proof.Proof.KI.Final1
import proofs.«129911_j76287209112195_2_alg».proof.Proof.KernelHost
import proofs.«129911_j76287209112195_2_alg».proof.Proof.AttnSpec
import Idealize.ShloMosaic.Lib.ValueIdx

/-
  The kernel's result is the kernel arrangement of the attention layer (AttnSpec: kerOut).

  The first region leaves, in row n * 2048 + s and column j of the projected activations, the sum over k of the
  flattened activations times the joined weights plus the joined bias.  Columns 0..1023 use the query weights and bias
  times the constant c, so they are kerQ; columns 1024..2047 and 2048..3071 use the key and value weights and biases, so
  they are lin.  The second region leaves, at (n, s, d), the quotient of the sum over t of exp(score - row maximum)
  times the value entry by the sum over t of exp(score - row maximum), the score being the sum over e of the query
  entry times the key entry: with the three entries named, that is kerOut.
-/

set_option maxRecDepth 16384

noncomputable section

namespace Cert.KernelIdeal.Hand

open Cert.KernelIdeal Cert.KernelIdeal.Gen Cert.AttnSpec
open Idealize.ShloMosaic Idealize.ShloMosaic.TcCoe Idealize.ShloMosaic.ValueIdx
open Idealize.SL.Sem

/-! ## The two regions' results over named entries -/

/-- A query column of the first region's result: with the flattened activations, the joined weights and the joined
    bias named by their entries, it is the query projection with the constant folded in. -/
theorem g0_kerQ (cst : EReal) (A0 : S4x2048x1024.Idx → EReal) (A1 : S1024x1024.Idx → EReal) (A2 : S1024.Idx → EReal)
    (X : S8192x1024.Idx → EReal) (Wc : S1024x3072.Idx → EReal) (bc : S3072.Idx → EReal)
    (hx : ∀ (n : Fin 4) (s : Fin 2048) (d : Fin 1024), X (ix2 (⟨n.val * 2048 + s.val, by omega⟩ : Fin 8192) d) = A0 (ix3 n s d))
    (hw : ∀ k e : Fin 1024, Wc (ix2 k (⟨e.val, by omega⟩ : Fin 3072)) = A1 (ix2 e k) * cst)
    (hb : ∀ e : Fin 1024, bc (ix1 (⟨e.val, by omega⟩ : Fin 3072)) = A2 (ix1 e) * cst)
    (n : Fin 4) (s : Fin 2048) (e : Fin 1024) :
    g0 X Wc bc (⟨n.val * 2048 + s.val, by omega⟩ : Fin 8192) (⟨e.val, by omega⟩ : Fin 3072)
      = kerQ cst (act A0) (mat A1) (bias A2) n s e := by
  unfold g0 kerQ act mat bias
  rw [hb]
  refine congrArg (· + _) (Finset.sum_congr rfl fun k _ => ?_)
  rw [hx, hw]

/-- A key or value column (offset o) of the first region's result is the plain projection. -/
theorem g0_lin (o : Nat) (ho : o + 1024 ≤ 3072) (A0 : S4x2048x1024.Idx → EReal) (A1 : S1024x1024.Idx → EReal) (A2 : S1024.Idx → EReal)
    (X : S8192x1024.Idx → EReal) (Wc : S1024x3072.Idx → EReal) (bc : S3072.Idx → EReal)
    (hx : ∀ (n : Fin 4) (s : Fin 2048) (d : Fin 1024), X (ix2 (⟨n.val * 2048 + s.val, by omega⟩ : Fin 8192) d) = A0 (ix3 n s d))
    (hw : ∀ k e : Fin 1024, Wc (ix2 k (⟨o + e.val, by omega⟩ : Fin 3072)) = A1 (ix2 e k))
    (hb : ∀ e : Fin 1024, bc (ix1 (⟨o + e.val, by omega⟩ : Fin 3072)) = A2 (ix1 e))
    (n : Fin 4) (s : Fin 2048) (e : Fin 1024) :
    g0 X Wc bc (⟨n.val * 2048 + s.val, by omega⟩ : Fin 8192) (⟨o + e.val, by omega⟩ : Fin 3072)
      = lin (act A0) (mat A1) (bias A2) n s e := by
  unfold g0 lin act mat bias
  rw [hb]
  refine congrArg (· + _) (Finset.sum_congr rfl fun k _ => ?_)
  rw [hx, hw]

/-- The second region's result, its three column blocks named, is the kernel arrangement's result. -/
theorem a1_kerOut (cst : EReal) (x : Act) (Wq : Mat) (bq : Bias) (Wk : Mat) (bk : Bias) (Wv : Mat) (bv : Bias)
    (Q : S4x2048x3072.Idx → EReal)
    (hq : ∀ (n : Fin 4) (s : Fin 2048) (e : Fin 1024), Q (ix3 n s (⟨e.val, by omega⟩ : Fin 3072)) = kerQ cst x Wq bq n s e)
    (hk : ∀ (n : Fin 4) (s : Fin 2048) (e : Fin 1024), Q (ix3 n s (⟨1024 + e.val, by omega⟩ : Fin 3072)) = lin x Wk bk n s e)
    (hv : ∀ (n : Fin 4) (s : Fin 2048) (e : Fin 1024), Q (ix3 n s (⟨2048 + e.val, by omega⟩ : Fin 3072)) = lin x Wv bv n s e)
    (n : Fin 4) (s : Fin 2048) (d : Fin 1024) :
    a1 Q n s d = kerOut cst x Wq bq Wk bk Wv bv n s d := by
  have hs : ∀ t : Fin 2048, sc1 Q n s t = kerScore cst x Wq bq Wk bk n s t := fun t => by
    unfold sc1 kerScore
    exact Finset.sum_congr rfl fun e _ => by rw [hq, hk]
  unfold a1 kerOut kerP kerMax
  simp only [hs, hv]

/-! ## The projected activations' entries -/

section
variable (m : (ℓ : Loc nD τ sig) → Buf (Elt Ideal) ℓ) (c : Dev nD)

/-- The projected activations at (n, s, j) are the first region's result at row n * 2048 + s. -/
theorem Q_g0 (n : Fin 4) (s : Fin 2048) (j : Fin 3072) :
    (VV3 m c main_v12 : S4x2048x3072.Idx → EReal) (ix3 n s j)
      = g0 (VV1 m c main_v10) (VV1 m c main_v6) (VV1 m c main_v9) (⟨n.val * 2048 + s.val, by omega⟩ : Fin 8192) j := by
  refine (HostVal.qkv3 m c (outsH m) n s j).trans ?_
  show (outs2 m main_v11 c : S8192x3072.Idx → EReal) _ = _
  rw [outs2_v11]
  unfold o2
  exact final0 (VV1 m) c _ j

theorem Q_q (n : Fin 4) (s : Fin 2048) (e : Fin 1024) :
    (VV3 m c main_v12 : S4x2048x3072.Idx → EReal) (ix3 n s (⟨e.val, by omega⟩ : Fin 3072))
      = kerQ (Ideal.ofBits .f32 0x3D000000#32) (act (m ((c : Thread nD τ).loc main_arg0) : S4x2048x1024.Idx → EReal))
          (mat (m ((c : Thread nD τ).loc main_arg1) : S1024x1024.Idx → EReal)) (bias (m ((c : Thread nD τ).loc main_arg2) : S1024.Idx → EReal)) n s e :=
  (Q_g0 m c n s _).trans (g0_kerQ _ _ _ _ _ _ _ (HostVal.xflat m c) (HostVal.wcat_q m c) (HostVal.bcat_q m c) n s e)

theorem Q_k (n : Fin 4) (s : Fin 2048) (e : Fin 1024) :
    (VV3 m c main_v12 : S4x2048x3072.Idx → EReal) (ix3 n s (⟨1024 + e.val, by omega⟩ : Fin 3072))
      = lin (act (m ((c : Thread nD τ).loc main_arg0) : S4x2048x1024.Idx → EReal))
          (mat (m ((c : Thread nD τ).loc main_arg3) : S1024x1024.Idx → EReal)) (bias (m ((c : Thread nD τ).loc main_arg4) : S1024.Idx → EReal)) n s e :=
  (Q_g0 m c n s _).trans (g0_lin 1024 (by omega) _ _ _ _ _ _ (HostVal.xflat m c) (HostVal.wcat_k m c) (HostVal.bcat_k m c) n s e)

theorem Q_v (n : Fin 4) (s : Fin 2048) (e : Fin 1024) :
    (VV3 m c main_v12 : S4x2048x3072.Idx → EReal) (ix3 n s (⟨2048 + e.val, by omega⟩ : Fin 3072))
      = lin (act (m ((c : Thread nD τ).loc main_arg0) : S4x2048x1024.Idx → EReal))
          (mat (m ((c : Thread nD τ).loc main_arg5) : S1024x1024.Idx → EReal)) (bias (m ((c : Thread nD τ).loc main_arg6) : S1024.Idx → EReal)) n s e :=
  (Q_g0 m c n s _).trans (g0_lin 2048 (by omega) _ _ _ _ _ _ (HostVal.xflat m c) (HostVal.wcat_v m c) (HostVal.bcat_v m c) n s e)

/-! ## The result -/

theorem o4_spec (n : Fin 4) (s : Fin 2048) (d : Fin 1024) :
    (o4 m c : S4x2048x1024.Idx → EReal) (ix3 n s d)
      = Cert.AttnSpec.kerOut (Ideal.ofBits .f32 0x3D000000#32)
          (Cert.AttnSpec.act (m ((c : Thread nD τ).loc main_arg0) : S4x2048x1024.Idx → EReal))
          (Cert.AttnSpec.mat (m ((c : Thread nD τ).loc main_arg1) : S1024x1024.Idx → EReal))
          (Cert.AttnSpec.bias (m ((c : Thread nD τ).loc main_arg2) : S1024.Idx → EReal))
          (Cert.AttnSpec.mat (m ((c : Thread nD τ).loc main_arg3) : S1024x1024.Idx → EReal))
          (Cert.AttnSpec.bias (m ((c : Thread nD τ).loc main_arg4) : S1024.Idx → EReal))
          (Cert.AttnSpec.mat (m ((c : Thread nD τ).loc main_arg5) : S1024x1024.Idx → EReal))
          (Cert.AttnSpec.bias (m ((c : Thread nD τ).loc main_arg6) : S1024.Idx → EReal)) n s d := by
  unfold o4
  refine (final1 (VV3 m) c n s d).trans ?_
  exact a1_kerOut _ _ _ _ _ _ _ _ _ (Q_q m c) (Q_k m c) (Q_v m c) n s d

end

end Cert.KernelIdeal.Hand

end
-- ==== Proof.RefRead.lean ====
import proofs.«129911_j76287209112195_2_alg».proof.Proof.Gen.ReferenceIdeal.Read
import proofs.«129911_j76287209112195_2_alg».proof.Proof.AttnSpec

/-
  The reference program's result, read at an index, is the reference arrangement of the attention layer
  (AttnSpec: refOut).  Stage by stage: the three projections are lin; the batched product over e divided by the
  constant is refScore; the fold of max over the keys from -inf, and the max of that with -inf, is refMax; the
  exponential of the difference is refP; the sum from 0 over the keys is the plain sum; the quotient and the batched
  product over the keys is refOut.
-/

noncomputable section

namespace Cert.ReferenceIdeal.RefValue

open Cert.ReferenceIdeal Cert.ReferenceIdeal.Gen Cert.AttnSpec Idealize.ShloMosaic Idealize.ShloMosaic.TcCoe Idealize.SL.Sem Idealize.ShloMosaic.StableHlo

set_option quotPrecheck false in
local notation "TA" => ((⟨S4x2048x1024, .f32⟩ : BufTy).Contents (Elt Ideal))
set_option quotPrecheck false in
local notation "TW" => ((⟨S1024x1024, .f32⟩ : BufTy).Contents (Elt Ideal))
set_option quotPrecheck false in
local notation "TB" => ((⟨S1024, .f32⟩ : BufTy).Contents (Elt Ideal))
set_option quotPrecheck false in
local notation "c32" => (Ideal.ofBits .f32 0x42000000#32)

/-- Two rank-3 indices with equal coordinates are equal. -/
local macro "idx3" : tactic =>
  `(tactic| exact funext fun a => Fin.ext (by match a with | ⟨0, _⟩ => rfl | ⟨1, _⟩ => rfl | ⟨2, _⟩ => rfl))
/-- Two rank-2 indices with equal coordinates are equal. -/
local macro "idx2" : tactic =>
  `(tactic| exact funext fun a => Fin.ext (by match a with | ⟨0, _⟩ => rfl | ⟨1, _⟩ => rfl))
/-- Two rank-1 indices with equal coordinates are equal. -/
local macro "idx1" : tactic =>
  `(tactic| exact funext fun a => Fin.ext (by match a with | ⟨0, _⟩ => rfl))

/-- The bit pattern 0xFF800000 is -inf. -/
private theorem ofBits_neg_inf : Ideal.ofBits .f32 0xFF800000#32 = (⊥ : EReal) := by
  simp [Ideal.ofBits, Ideal.ieee]

/-- The shape fact naming the index with the key coordinate put back. -/
private theorem red2 : S4x2048x2048.Reduces [2] S4x2048 := by decide

/-! ## The three projections -/

theorem v3_spec (x0 : TA) (x1 : TW) (x2 : TB) (n : Fin 4) (s : Fin 2048) (e : Fin 1024) :
    Read.val_main_v3 (F := Ideal) x0 x1 x2 (ValueIdx.ix3 n s e) = lin (act x0) (mat x1) (bias x2) n s e := by
  rw [Read.val_main_v3_apply, Read.val_main_v0_apply, Read.val_main_v2_apply, Read.val_main_v1_apply]
  unfold lin act mat bias
  refine congrArg₂ (· + ·) (Finset.sum_congr rfl fun k _ => congrArg₂ (· * ·) (congrArg x0 ?_) (congrArg x1 ?_)) (congrArg x2 ?_)
  · idx3
  · idx2
  · idx1

theorem v7_spec (x0 : TA) (x3 : TW) (x4 : TB) (n : Fin 4) (s : Fin 2048) (e : Fin 1024) :
    Read.val_main_v7 (F := Ideal) x0 x3 x4 (ValueIdx.ix3 n s e) = lin (act x0) (mat x3) (bias x4) n s e := by
  rw [Read.val_main_v7_apply, Read.val_main_v4_apply, Read.val_main_v6_apply, Read.val_main_v5_apply]
  unfold lin act mat bias
  refine congrArg₂ (· + ·) (Finset.sum_congr rfl fun k _ => congrArg₂ (· * ·) (congrArg x0 ?_) (congrArg x3 ?_)) (congrArg x4 ?_)
  · idx3
  · idx2
  · idx1

theorem v11_spec (x0 : TA) (x5 : TW) (x6 : TB) (n : Fin 4) (s : Fin 2048) (e : Fin 1024) :
    Read.val_main_v11 (F := Ideal) x0 x5 x6 (ValueIdx.ix3 n s e) = lin (act x0) (mat x5) (bias x6) n s e := by
  rw [Read.val_main_v11_apply, Read.val_main_v8_apply, Read.val_main_v10_apply, Read.val_main_v9_apply]
  unfold lin act mat bias
  refine congrArg₂ (· + ·) (Finset.sum_congr rfl fun k _ => congrArg₂ (· * ·) (congrArg x0 ?_) (congrArg x5 ?_)) (congrArg x6 ?_)
  · idx3
  · idx2
  · idx1

/-! ## The scores -/

theorem v14_spec (x0 : TA) (x1 : TW) (x2 : TB) (x3 : TW) (x4 : TB) (n : Fin 4) (q k : Fin 2048) :
    Read.val_main_v14 (F := Ideal) x0 x1 x2 x3 x4 (ValueIdx.ix3 n q k)
      = refScore c32 (act x0) (mat x1) (bias x2) (mat x3) (bias x4) n q k := by
  rw [Read.val_main_v14_apply, Read.val_main_v12_apply, Read.val_main_v13_apply, Read.val_main_cst_apply]
  unfold refScore
  refine congrArg₂ Ideal.div (Finset.sum_congr rfl fun e _ => ?_) rfl
  have hl : Read.lidx_main_v12 (ValueIdx.ix3 n q k) e = ValueIdx.ix3 n q e := by idx3
  have hr : Read.ridx_main_v12 (ValueIdx.ix3 n q k) e = ValueIdx.ix3 n k e := by idx3
  rw [hl, hr, v3_spec, v7_spec]

/-! ## The row maximum -/

theorem v15_spec (x0 : TA) (x1 : TW) (x2 : TB) (x3 : TW) (x4 : TB) (n : Fin 4) (q : Fin 2048) :
    Read.val_main_v15 (F := Ideal) x0 x1 x2 x3 x4 (ValueIdx.ix2 n q)
      = refMax c32 (act x0) (mat x1) (bias x2) (mat x3) (bias x4) n q := by
  unfold Read.val_main_v15
  rw [Host.reduce_eq_fold_single FloatOps.maximumf _ _ reducesTo_S4x2048x2048_S4x2048_d2 red2 h_S_]
  unfold refMax
  show Finset.fold max (Ideal.ofBits .f32 0xFF800000#32)
      (fun k : Fin 2048 => Read.val_main_v14 (F := Ideal) x0 x1 x2 x3 x4 (red2.lift (ValueIdx.ix2 n q) k)) Finset.univ = _
  rw [ofBits_neg_inf]
  refine Finset.fold_congr fun k _ => ?_
  rw [← v14_spec]
  exact congrArg _ (by idx3)

theorem v17_spec (x0 : TA) (x1 : TW) (x2 : TB) (x3 : TW) (x4 : TB) (n : Fin 4) (q : Fin 2048) :
    Read.val_main_v17 (F := Ideal) x0 x1 x2 x3 x4 (ValueIdx.ix2 n q)
      = refMax c32 (act x0) (mat x1) (bias x2) (mat x3) (bias x4) n q := by
  rw [Read.val_main_v17_apply, Read.val_main_v16_apply, Read.val_main_cst_1_apply, v15_spec]
  show max (Ideal.ofBits .f32 0xFF800000#32) _ = _
  rw [ofBits_neg_inf]
  exact max_eq_right bot_le

/-! ## The exponentials and their sum -/

theorem v21_spec (x0 : TA) (x1 : TW) (x2 : TB) (x3 : TW) (x4 : TB) (n : Fin 4) (q k : Fin 2048) :
    Read.val_main_v21 (F := Ideal) x0 x1 x2 x3 x4 (ValueIdx.ix3 n q k)
      = refP c32 (act x0) (mat x1) (bias x2) (mat x3) (bias x4) n q k := by
  rw [Read.val_main_v21_apply, Read.val_main_v20_apply, Read.val_main_v19_apply, Read.val_main_v18_apply, v14_spec]
  have hi : Read.idx_main_v18 (Read.idx_main_v19 (ValueIdx.ix3 n q k)) = ValueIdx.ix2 n q := by idx2
  rw [hi, v17_spec]
  rfl

theorem v22_spec (x0 : TA) (x1 : TW) (x2 : TB) (x3 : TW) (x4 : TB) (n : Fin 4) (q : Fin 2048) :
    Read.val_main_v22 (F := Ideal) x0 x1 x2 x3 x4 (ValueIdx.ix2 n q)
      = ∑ k : Fin 2048, refP c32 (act x0) (mat x1) (bias x2) (mat x3) (bias x4) n q k := by
  rw [Read.val_main_v22_apply, Read.val_main_cst_2_apply]
  show Ideal.ofBits .f32 0x00000000#32 + _ = _
  rw [Ideal.ofBits_zero_f32, zero_add]
  refine Finset.sum_congr rfl fun k _ => ?_
  rw [← v21_spec]
  exact congrArg _ (by idx3)

/-! ## The softmax weights and the result -/

theorem v25_spec (x0 : TA) (x1 : TW) (x2 : TB) (x3 : TW) (x4 : TB) (n : Fin 4) (q k : Fin 2048) :
    Read.val_main_v25 (F := Ideal) x0 x1 x2 x3 x4 (ValueIdx.ix3 n q k)
      = Ideal.div (refP c32 (act x0) (mat x1) (bias x2) (mat x3) (bias x4) n q k)
          (∑ k' : Fin 2048, refP c32 (act x0) (mat x1) (bias x2) (mat x3) (bias x4) n q k') := by
  rw [Read.val_main_v25_apply, Read.val_main_v24_apply, Read.val_main_v23_apply, v21_spec]
  have hi : Read.idx_main_v23 (Read.idx_main_v24 (ValueIdx.ix3 n q k)) = ValueIdx.ix2 n q := by idx2
  rw [hi, v22_spec]
  rfl

theorem val_main_v26_spec (x0 : TA) (x1 : TW) (x2 : TB) (x3 : TW) (x4 : TB) (x5 : TW) (x6 : TB)
    (n : Fin 4) (q : Fin 2048) (d : Fin 1024) :
    Read.val_main_v26 (F := Ideal) x0 x1 x2 x3 x4 x5 x6 (ValueIdx.ix3 n q d)
      = refOut (Ideal.ofBits .f32 0x42000000#32) (act x0) (mat x1) (bias x2) (mat x3) (bias x4) (mat x5) (bias x6) n q d := by
  rw [Read.val_main_v26_apply]
  unfold refOut
  refine Finset.sum_congr rfl fun k _ => ?_
  have hl : Read.lidx_main_v26 (ValueIdx.ix3 n q d) k = ValueIdx.ix3 n q k := by idx3
  have hr : Read.ridx_main_v26 (ValueIdx.ix3 n q d) k = ValueIdx.ix3 n k d := by idx3
  rw [hl, hr, v25_spec, v11_spec]

end Cert.ReferenceIdeal.RefValue

end
-- ==== Proof.AttnAlgebra.lean ====
/-
  The algebra between the two arrangements of the attention layer of AttnSpec.

  For real inputs, scale c = 1/32 and divisor 32:
  * the query projection with the scale folded into weights and bias is the plain projection times c;
  * hence the kernel's score (sum_e (Q_e * c) * K_e) equals the reference's (sum_e Q_e * K_e) / 32,
    so the row maxima and the exponentials agree;
  * the exponentials p_k are positive reals, their sum L is a positive real, and
    (sum_k p_k * v_k) / L = sum_k (p_k / L) * v_k.
-/
import proofs.«129911_j76287209112195_2_alg».proof.Proof.AttnSpec
import Mathlib

noncomputable section

namespace Cert.AttnSpec

open Idealize.ShloMosaic

/-! ## Three constants -/

/-- The pattern 0x3D000000 denotes 2^(-5) = 1/32. -/
theorem c_inv32 : Ideal.ofBits .f32 0x3D000000#32 = (((1 / 32 : ℝ)) : EReal) := by
  simp [Ideal.ofBits, Ideal.ieee, -EReal.coe_mul]; norm_num

/-- The pattern 0x42000000 denotes 2^5 = 32. -/
theorem c_32 : Ideal.ofBits .f32 0x42000000#32 = ((32 : ℝ) : EReal) := by
  simp [Ideal.ofBits, Ideal.ieee, -EReal.coe_mul]; norm_num

/-- The pattern 0xFF800000 (sign set, exponent all ones, fraction zero) denotes -infinity. -/
theorem c_neg_inf : Ideal.ofBits .f32 0xFF800000#32 = (⊥ : EReal) := by
  simp [Ideal.ofBits, Ideal.ieee]

/-! ## Finite sums and folds of reals inside the extended reals -/

section Generic

variable {ι : Type*}

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable [Fintype ι]

/-- A sum of products of reals is real. -/
theorem dot_coe (f g : ι → ℝ) :
    (∑ d, (f d : EReal) * (g d : EReal)) = ((∑ d, f d * g d : ℝ) : EReal) := by
  rw [coe_sum]; simp only [EReal.coe_mul]

/-- A sum of products of reals plus a real is real. -/
theorem dot_add_coe (f g : ι → ℝ) (b : ℝ) :
    (∑ d, (f d : EReal) * (g d : EReal)) + (b : EReal) = ((∑ d, f d * g d + b : ℝ) : EReal) := by
  rw [dot_coe, EReal.coe_add]

/-- The scale folded into the second factor and the added term comes out of the whole:
    sum_d f_d * (g_d * c) + b * c = (sum_d f_d * g_d + b) * c. -/
theorem dot_scaled_coe (f g : ι → ℝ) (b c : ℝ) :
    (∑ d, (f d : EReal) * ((g d : EReal) * (c : EReal))) + (b : EReal) * (c : EReal)
      = (((∑ d, f d * g d + b) * c : ℝ) : EReal) := by
  have h : (∑ d, f d * g d + b) * c = ∑ d, f d * (g d * c) + b * c := by
    rw [add_mul, Finset.sum_mul]
    congr 1
    exact Finset.sum_congr rfl (fun d _ => by ring)
  rw [h, EReal.coe_add, coe_sum]; simp only [EReal.coe_mul]

/-- The scale folded into the first factor comes out of the sum:
    sum_e (f_e * c) * g_e = (sum_e f_e * g_e) * c. -/
theorem dot_scale_left_coe (f g : ι → ℝ) (c : ℝ) :
    (∑ e, ((f e : EReal) * (c : EReal)) * (g e : EReal)) = (((∑ e, f e * g e) * c : ℝ) : EReal) := by
  have h : (∑ e, f e * g e) * c = ∑ e, (f e * c) * g e := by
    rw [Finset.sum_mul]
    exact Finset.sum_congr rfl (fun e _ => by ring)
  rw [h, coe_sum]; simp only [EReal.coe_mul]

/-- The fold of max from -infinity over a nonempty finite family of reals is a real. -/
theorem fold_max_real (s : Finset ι) (hs : s.Nonempty) (f : ι → ℝ) :
    ∃ M : ℝ, s.fold max (⊥ : EReal) (fun k => (f k : EReal)) = (M : EReal) := by
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- Dividing once after the weighted sum is the same as dividing every weight:
    (sum_k p_k * v_k) / L = sum_k (p_k / L) * v_k for L = sum_k p_k a nonzero real. -/
theorem div_sum_eq (p v : ι → ℝ) (hL : ∑ k, p k ≠ 0) :
    Ideal.div (∑ k, (p k : EReal) * (v k : EReal)) (∑ k, (p k : EReal))
      = ∑ k, Ideal.div (p k : EReal) (∑ k', (p k' : EReal)) * (v k : EReal) := by
  rw [← coe_sum, Ideal.div_coe hL, dot_coe, ← EReal.coe_mul]
  simp only [Ideal.div_coe hL, ← EReal.coe_mul]
  rw [← coe_sum, Finset.sum_mul]
  congr 1
  exact Finset.sum_congr rfl (fun k _ => by ring)

end Generic

/-! ## The projections -/

/-- A projection of real inputs is real. -/
theorem lin_real (x : Act) (W : Mat) (b : Bias)
    (hx : ∀ n s d, ∃ r : ℝ, x n s d = (r : EReal)) (hW : ∀ e d, ∃ r : ℝ, W e d = (r : EReal))
    (hb : ∀ e, ∃ r : ℝ, b e = (r : EReal)) (n : Fin 4) (s : Fin 2048) (e : Fin 1024) :
    ∃ r : ℝ, lin x W b n s e = (r : EReal) := by
  choose X hX using hx
  choose W' hW' using hW
  choose B hB using hb
  refine ⟨∑ d, X n s d * W' e d + B e, ?_⟩
  unfold lin
  simp only [hX, hW', hB]
  exact dot_add_coe _ _ _

/-- The projection with a real scale folded into weights and bias is the plain projection times the scale. -/
theorem kerQ_eq (c : ℝ) (x : Act) (W : Mat) (b : Bias)
    (hx : ∀ n s d, ∃ r : ℝ, x n s d = (r : EReal)) (hW : ∀ e d, ∃ r : ℝ, W e d = (r : EReal))
    (hb : ∀ e, ∃ r : ℝ, b e = (r : EReal)) (n : Fin 4) (s : Fin 2048) (e : Fin 1024) :
    kerQ (c : EReal) x W b n s e = lin x W b n s e * (c : EReal) := by
  choose X hX using hx
  choose W' hW' using hW
  choose B hB using hb
  unfold kerQ lin
  simp only [hX, hW', hB]
  rw [dot_scaled_coe, dot_add_coe, EReal.coe_mul]

/-! ## The scores -/

/-- The two scores are one real: sum_e (Q_e * (1/32)) * K_e = (sum_e Q_e * K_e) / 32. -/
theorem score_eq (x : Act) (Wq : Mat) (bq : Bias) (Wk : Mat) (bk : Bias)
    (hx : ∀ n s d, ∃ r : ℝ, x n s d = (r : EReal))
    (hWq : ∀ e d, ∃ r : ℝ, Wq e d = (r : EReal)) (hWk : ∀ e d, ∃ r : ℝ, Wk e d = (r : EReal))
    (hbq : ∀ e, ∃ r : ℝ, bq e = (r : EReal)) (hbk : ∀ e, ∃ r : ℝ, bk e = (r : EReal))
    (n : Fin 4) (q k : Fin 2048) :
    ∃ r : ℝ, kerScore (((1 / 32 : ℝ)) : EReal) x Wq bq Wk bk n q k = (r : EReal)
      ∧ refScore ((32 : ℝ) : EReal) x Wq bq Wk bk n q k = (r : EReal) := by
  choose Q hQ using lin_real x Wq bq hx hWq hbq
  choose K hK using lin_real x Wk bk hx hWk hbk
  refine ⟨(∑ e, Q n q e * K n k e) * (1 / 32), ?_, ?_⟩
  · unfold kerScore
    simp only [kerQ_eq (1 / 32) x Wq bq hx hWq hbq, hQ, hK]
    exact dot_scale_left_coe _ _ _
  · unfold refScore
    simp only [hQ, hK]
    rw [Ideal.div_coe (by norm_num), dot_coe, ← EReal.coe_mul]

/-! ## The main theorem -/

/-- For real inputs the kernel arrangement (scale 1/32 folded into the query projection, one division
    after the weighted sum) equals the reference arrangement (scores divided by 32, softmax weights). -/
theorem kerOut_eq_refOut (x : Act) (Wq Wk Wv : Mat) (bq bk bv : Bias)
    (hx : ∀ n s d, ∃ r : ℝ, x n s d = (r : EReal))
    (hWq : ∀ e d, ∃ r : ℝ, Wq e d = (r : EReal)) (hWk : ∀ e d, ∃ r : ℝ, Wk e d = (r : EReal)) (hWv : ∀ e d, ∃ r : ℝ, Wv e d = (r : EReal))
    (hbq : ∀ e, ∃ r : ℝ, bq e = (r : EReal)) (hbk : ∀ e, ∃ r : ℝ, bk e = (r : EReal)) (hbv : ∀ e, ∃ r : ℝ, bv e = (r : EReal))
    (n : Fin 4) (q : Fin 2048) (d : Fin 1024) :
    kerOut (((1 / 32 : ℝ)) : EReal) x Wq bq Wk bk Wv bv n q d = refOut ((32 : ℝ) : EReal) x Wq bq Wk bk Wv bv n q d := by
  -- the common real scores s_k and the real value rows
  choose S hkS hrS using score_eq x Wq bq Wk bk hx hWq hWk hbq hbk
  choose V hV using lin_real x Wv bv hx hWv hbv
  -- the row maximum is a real M
  obtain ⟨M, hM⟩ := fold_max_real (Finset.univ : Finset (Fin 2048)) ⟨0, Finset.mem_univ _⟩ (fun k => S n q k)
  have hrM : refMax ((32 : ℝ) : EReal) x Wq bq Wk bk n q = (M : EReal) := by
    unfold refMax; simp only [hrS]; exact hM
  have hkM : kerMax (((1 / 32 : ℝ)) : EReal) x Wq bq Wk bk n q = (M : EReal) := by
    unfold kerMax; simp only [hkS]; exact hM
  -- the exponentials p_k = exp (s_k - M) are positive reals
  have hrP : ∀ k, refP ((32 : ℝ) : EReal) x Wq bq Wk bk n q k = ((Real.exp (S n q k - M) : ℝ) : EReal) := by
    intro k; unfold refP; rw [hrS, hrM, ← EReal.coe_sub, Ideal.exp_coe]
  have hkP : ∀ k, kerP (((1 / 32 : ℝ)) : EReal) x Wq bq Wk bk n q k = ((Real.exp (S n q k - M) : ℝ) : EReal) := by
    intro k; unfold kerP; rw [hkS, hkM, ← EReal.coe_sub, Ideal.exp_coe]
  have hL : ∑ k : Fin 2048, Real.exp (S n q k - M) ≠ 0 :=
    (Finset.sum_pos (fun k _ => Real.exp_pos _) ⟨0, Finset.mem_univ _⟩).ne'
  unfold kerOut refOut
  simp only [hrP, hkP, hV]
  exact div_sum_eq _ _ hL

end Cert.AttnSpec

end
-- ==== Proof.LibFiniteEntries.lean ====
/-
  Entries of finite magnitude are real numbers. An extended real x whose magnitude max x (−x) is strictly below +∞
  is neither +∞ nor −∞, so it is a real number. A precondition that says this of every entry of an array — the
  conjunction, over all entries, of the comparison |x| < +∞ — therefore makes every entry of the array real.
-/
import Idealize.ShloMosaic.PureOps.Ideal.Laws
import Idealize.ShloMosaic.Lib.ValueIdx
import Idealize.ShloMosaic.Lib.ReduceAll

namespace Idealize.ShloMosaic.FiniteEntries

open Idealize.ShloMosaic

/-- The word 0x7F800000 is +∞. -/
theorem ofBits_inf_f32 : Ideal.ofBits .f32 0x7F800000#32 = (⊤ : EReal) := by
  simp [Ideal.ofBits, Ideal.ieee]

/-- An extended real whose magnitude is strictly below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison bit of |x| < +∞ being one makes x real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  refine real_of_abs_lt_top x ?_
  have h' : Ideal.cmp .olt (max x (-x)) ⊤ = 1#1 := h
  unfold Ideal.cmp at h'
  by_contra hlt
  simp [hlt] at h'

end Idealize.ShloMosaic.FiniteEntries
-- ==== Proof.FiniteInputs.lean ====
import proofs.«129911_j76287209112195_2_alg».proof.Pre_finite_inputs
import proofs.«129911_j76287209112195_2_alg».proof.Proof.LibFiniteEntries
import Idealize.ShloMosaic.Lib.ReduceAll
import Idealize.ShloMosaic.Lib.ValueIdx
import Idealize.ShloMosaic.PureOps.Ideal.Laws

/-
  The precondition makes every input entry a real number.  The precondition is the conjunction, over the seven
  input arrays, of "every entry has magnitude strictly below +inf"; it is stated as a rank-0 array of one bit being 1.
  A conjunction of bits is 1 exactly when both are; a conjunction over all entries of an array that is 1 met a 1 at
  every entry; and an extended real of magnitude below +inf is a real number.
-/

noncomputable section

namespace Cert.FiniteInputs

open Idealize.ShloMosaic Cert.Pre_finite_inputs

/-- The rank-0 shape has one index. -/
local instance : Subsingleton S_.Idx := ⟨fun a b => funext fun d => d.elim0⟩

/-- A conjunction of two one-bit rank-0 arrays that is 1 has both conjuncts 1. -/
private theorem andi_one {x y : IVec S_ 1} (h : andi x y ValueIdx.ix0 = 1#1) :
    x ValueIdx.ix0 = 1#1 ∧ y ValueIdx.ix0 = 1#1 := IntOp.andi_eq_one.1 h

/-- One array: if the conjunction over all its entries of |a| < +inf is 1, every entry is a real number. -/
private theorem real_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant (F := Ideal) S_ .f32 0x7F800000#32)))
        (constantI S_ 1 1#1) hr hu ValueIdx.ix0 = 1#1) :
    ∀ i, ∃ r : ℝ, a i = (r : EReal) := fun i =>
  FiniteEntries.real_of_cmp (a i) (Host.reduce_andi_all _ _ hr hu ValueIdx.ix0 h i)

theorem real_of_pre [Cert.Pre_finite_inputs.Facts] (a0 : FVec Ideal S4x2048x1024 .f32) (a1 : FVec Ideal S1024x1024 .f32)
    (a2 : FVec Ideal S1024 .f32) (a3 : FVec Ideal S1024x1024 .f32) (a4 : FVec Ideal S1024 .f32)
    (a5 : FVec Ideal S1024x1024 .f32) (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  unfold Cert.Pre_finite_inputs.fn Cert.Pre_finite_inputs.fn_part1 at h0
  dsimp only at h0
  obtain ⟨h5, e6⟩ := andi_one h0
  obtain ⟨h4, e5⟩ := andi_one h5
  obtain ⟨h3, e4⟩ := andi_one h4
  obtain ⟨h2, e3⟩ := andi_one h3
  obtain ⟨h1, e2⟩ := andi_one h2
  obtain ⟨e0, e1⟩ := andi_one h1
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6⟩

end Cert.FiniteInputs

end
-- ==== Proof.Bridge.lean ====
/-
  The bridge between the two programs at the ideal values.  The kernel's result array (what the attention region's
  write-backs leave) is the kernel arrangement of the specification at every entry; the reference's result is the
  reference arrangement; the precondition makes every input entry a real number, and for real inputs the two
  arrangements agree: the scale 1/32 folded into the query projection leaves the scores those of the quotient by 32,
  and dividing the weighted sum of value rows once by the sum of the weights is summing the normalised weights against
  the value rows.  The five claims follow: the three frames from the runs, the idealization rewrote nothing, and the
  two runs from agreeing arguments end with equal results.
-/
import proofs.«129911_j76287209112195_2_alg».proof.Defs
import proofs.«129911_j76287209112195_2_alg».proof.Proof.Gen.Kernel
import proofs.«129911_j76287209112195_2_alg».proof.Proof.Gen.KernelIdeal
import proofs.«129911_j76287209112195_2_alg».proof.Proof.Gen.ReferenceIdeal
import proofs.«129911_j76287209112195_2_alg».proof.Proof.Gen.Pre_finite_inputs
import proofs.«129911_j76287209112195_2_alg».proof.Proof.Gen.ReferenceIdeal.Run
import proofs.«129911_j76287209112195_2_alg».proof.Proof.KB.Frame
import proofs.«129911_j76287209112195_2_alg».proof.Proof.KI.Frame
import proofs.«129911_j76287209112195_2_alg».proof.Proof.KI.KernelValue
import proofs.«129911_j76287209112195_2_alg».proof.Proof.RefRead
import proofs.«129911_j76287209112195_2_alg».proof.Proof.AttnAlgebra
import proofs.«129911_j76287209112195_2_alg».proof.Proof.FiniteInputs

noncomputable section

namespace Cert.Proof.Bridge

open Idealize.ShloMosaic Idealize.ShloMosaic.TcCoe Idealize.SL.Sem Idealize.ShloMosaic.ValueIdx

/-- Under the precondition the reference's result stage, applied to the kernel's argument arrays, is the kernel's
    result array: entry by entry both are the attention layer of real inputs. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1) :
    Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Hand.o4 m c := by
  obtain ⟨h0, h1, h2, h3, h4, h5, h6⟩ := Cert.FiniteInputs.real_of_pre _ _ _ _ _ _ _ hpre
  funext i
  obtain ⟨n, s, d, rfl⟩ : ∃ (n : Fin 4) (s : Fin 2048) (d : Fin 1024), i = ix3 n s d := ⟨i 0, i 1, i 2, eq_ix3 i⟩
  refine (Cert.ReferenceIdeal.RefValue.val_main_v26_spec _ _ _ _ _ _ _ n s d).trans ?_
  refine Eq.trans ?_ (Cert.KernelIdeal.Hand.o4_spec m c n s d).symm
  rw [Cert.AttnSpec.c_32, Cert.AttnSpec.c_inv32]
  exact (Cert.AttnSpec.kerOut_eq_refOut _ _ _ _ _ _ _
    (fun n s d => h0 (ix3 n s d)) (fun e d => h1 (ix2 e d)) (fun e d => h3 (ix2 e d)) (fun e d => h5 (ix2 e d))
    (fun e => h2 (ix1 e)) (fun e => h4 (ix1 e)) (fun e => h6 (ix1 e)) n s d).symm

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the reference's result is the kernel's. -/
theorem algebraic : Cert.algebraic_KernelIdeal_ReferenceIdeal := by
  intro m ρ m' ρ' hpre hagree
  refine ⟨fun c => Cert.KernelIdeal.Hand.o4 m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2.1, (hagree c).2.2.2.2.2.1, (hagree c).2.2.2.2.2.2]
  exact result_eq m c (hpre c)

end Cert.Proof.Bridge

end
-- ==== Proof.lean ====
/-
  The certificate's claim: the kernel (a fused projection region and an attention region around host reshapes)
  against the reference attention layer.  The frames of the two kernel programs come from their runs through both
  regions; the reference's from its run; the idealization rewrote nothing; and at the ideal values the two results
  agree for finite inputs (Proof/Bridge.lean).
-/
import proofs.«129911_j76287209112195_2_alg».proof.Defs
import proofs.«129911_j76287209112195_2_alg».proof.Proof.Gen.Kernel
import proofs.«129911_j76287209112195_2_alg».proof.Proof.Gen.KernelIdeal
import proofs.«129911_j76287209112195_2_alg».proof.Proof.Gen.ReferenceIdeal
import proofs.«129911_j76287209112195_2_alg».proof.Proof.Gen.Pre_finite_inputs
import proofs.«129911_j76287209112195_2_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
